-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S48x16 : Shape := ⟨2, ![48, 16]⟩
abbrev S16 : Shape := ⟨1, ![16]⟩
abbrev S16x16 : Shape := ⟨2, ![16, 16]⟩
abbrev S16x60 : Shape := ⟨2, ![16, 60]⟩
abbrev S60 : Shape := ⟨1, ![60]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x16 : S_.BroadcastsInDim S48x16 (![] : Fin 0 → Fin S48x16.rank)
  reducesTo_S48x16_S_d0_1 : S48x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x60 : S_.BroadcastsInDim S16x60 (![] : Fin 0 → Fin S16x60.rank)
  reducesTo_S16x60_S_d0_1 : S16x60.ReducesTo [0, 1] S_
  bcast_S_S60 : S_.BroadcastsInDim S60 (![] : Fin 0 → Fin S60.rank)
  reducesTo_S60_S_d0 : S60.ReducesTo [0] S_

variable [Facts]

def fn_part2 {F : FTy → Type} [FloatOps F] (main_arg8 : FVec F S16x60 .f32) (main_arg9 : FVec F S60 .f32) (main_arg10 : FVec F S16x60 .f32) (main_v33 : IVec S_ 1) : IVec S_ 1 :=
  let main_v34 : FVec F S16x60 .f32 := Host.absf main_arg8
  let main_cst_12 : FVec F S_ .f32 := constant S_ .f32 0x7F800000#32
  let main_v35 : FVec F S16x60 .f32 := broadcastInDim S16x60 ![] bcast_S_S16x60 main_cst_12
  let main_v36 : IVec S16x60 1 := cmpf .olt main_v34 main_v35
  let main_c_13 : IVec S_ 1 := constantI S_ 1 1#1
  let main_v37 : IVec S_ 1 := (fun x v => Host.reduce IntOp.andi x v reducesTo_S16x60_S_d0_1 h_S_) main_v36 main_c_13
  let main_v38 : IVec S_ 1 := andi main_v33 main_v37
  let main_v39 : FVec F S60 .f32 := Host.absf main_arg9
  let main_cst_14 : FVec F S_ .f32 := constant S_ .f32 0x7F800000#32
  let main_v40 : FVec F S60 .f32 := broadcastInDim S60 ![] bcast_S_S60 main_cst_14
  let main_v41 : IVec S60 1 := cmpf .olt main_v39 main_v40
  let main_c_15 : IVec S_ 1 := constantI S_ 1 1#1
  let main_v42 : IVec S_ 1 := (fun x v => Host.reduce IntOp.andi x v reducesTo_S60_S_d0 h_S_) main_v41 main_c_15
  let main_v43 : IVec S_ 1 := andi main_v38 main_v42
  let main_v44 : FVec F S16x60 .f32 := Host.absf main_arg10
  let main_cst_16 : FVec F S_ .f32 := constant S_ .f32 0x7F800000#32
  let main_v45 : FVec F S16x60 .f32 := broadcastInDim S16x60 ![] bcast_S_S16x60 main_cst_16
  let main_v46 : IVec S16x60 1 := cmpf .olt main_v44 main_v45
  let main_c_17 : IVec S_ 1 := constantI S_ 1 1#1
  let main_v47 : IVec S_ 1 := (fun x v => Host.reduce IntOp.andi x v reducesTo_S16x60_S_d0_1 h_S_) main_v46 main_c_17
  let main_v48 : IVec S_ 1 := andi main_v43 main_v47
  main_v48

def fn_part1 {F : FTy → Type} [FloatOps F] (main_arg5 : FVec F S16x16 .f32) (main_arg6 : FVec F S16 .f32) (main_arg7 : FVec F S16x16 .f32) (main_arg8 : FVec F S16x60 .f32) (main_arg9 : FVec F S60 .f32) (main_arg10 : FVec F S16x60 .f32) (main_v13 : IVec S_ 1) (main_v16 : IVec S48x16 1) : IVec S_ 1 :=
  let main_c_5 : IVec S_ 1 := constantI S_ 1 1#1
  let main_v17 : IVec S_ 1 := (fun x v => Host.reduce IntOp.andi x v reducesTo_S48x16_S_d0_1 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x48 .f32) (main_arg1 : IVec S2x1600000 32) (main_arg2 : FVec F S48x16 .f32) (main_arg3 : FVec F S16 .f32) (main_arg4 : FVec F S48x16 .f32) (main_arg5 : FVec F S16x16 .f32) (main_arg6 : FVec F S16 .f32) (main_arg7 : FVec F S16x16 .f32) (main_arg8 : FVec F S16x60 .f32) (main_arg9 : FVec F S60 .f32) (main_arg10 : FVec F S16x60 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x16 .f32 := Host.absf main_arg2
  let main_cst_0 : FVec F S_ .f32 := constant S_ .f32 0x7F800000#32
  let main_v5 : FVec F S48x16 .f32 := broadcastInDim S48x16 ![] bcast_S_S48x16 main_cst_0
  let main_v6 : IVec S48x16 1 := cmpf .olt main_v4 main_v5
  let main_c_1 : IVec S_ 1 := constantI S_ 1 1#1
  let main_v7 : IVec S_ 1 := (fun x v => Host.reduce IntOp.andi x v reducesTo_S48x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S48x16 .f32 := Host.absf main_arg4
  let main_cst_4 : FVec F S_ .f32 := constant S_ .f32 0x7F800000#32
  let main_v15 : FVec F S48x16 .f32 := broadcastInDim S48x16 ![] bcast_S_S48x16 main_cst_4
  let main_v16 : IVec S48x16 1 := cmpf .olt main_v14 main_v15
  fn_part1 (F := F) main_arg5 main_arg6 main_arg7 main_arg8 main_arg9 main_arg10 main_v13 main_v16
-- ==== Kernel.lean ====
abbrev S100000x48 : Shape := ⟨2, ![100000, 48]⟩
abbrev S2x1600000 : Shape := ⟨2, ![2, 1600000]⟩
abbrev S48x16 : Shape := ⟨2, ![48, 16]⟩
abbrev S16 : Shape := ⟨1, ![16]⟩
abbrev S16x16 : Shape := ⟨2, ![16, 16]⟩
abbrev S16x60 : Shape := ⟨2, ![16, 60]⟩
abbrev S60 : Shape := ⟨1, ![60]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S1x16 : Shape := ⟨2, ![1, 16]⟩
abbrev S100000x16 : Shape := ⟨2, ![100000, 16]⟩
abbrev S5000x48 : Shape := ⟨2, ![5000, 48]⟩
abbrev S5000x16 : Shape := ⟨2, ![5000, 16]⟩
abbrev S1600000x16 : Shape := ⟨2, ![1600000, 16]⟩
abbrev S1x60 : Shape := ⟨2, ![1, 60]⟩
abbrev S100000x60 : Shape := ⟨2, ![100000, 60]⟩
abbrev S5000x60 : Shape := ⟨2, ![5000, 60]⟩

abbrev nBuf : Space → Nat
  | .hbm => 60
  | .vmem => 27
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x16, .f32⟩
  | .hbm, ⟨3, _⟩ => ⟨S16, .f32⟩
  | .hbm, ⟨4, _⟩ => ⟨S48x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x60, .f32⟩
  | .hbm, ⟨9, _⟩ => ⟨S60, .f32⟩
  | .hbm, ⟨10, _⟩ => ⟨S16x60, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x48, .f32⟩
  | .hbm, ⟨24, _⟩ => ⟨S_, .f32⟩
  | .hbm, ⟨25, _⟩ => ⟨S100000x48, .f32⟩
  | .hbm, ⟨26, _⟩ => ⟨S1600000x1, .i32⟩
  | .hbm, ⟨27, _⟩ => ⟨S100000x48, .f32⟩
  | .hbm, ⟨28, _⟩ => ⟨S1x16, .f32⟩
  | .hbm, ⟨29, _⟩ => ⟨S100000x16, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x16, .f32⟩
  | .hbm, ⟨39, _⟩ => ⟨S_, .f32⟩
  | .hbm, ⟨40, _⟩ => ⟨S100000x16, .f32⟩
  | .hbm, ⟨41, _⟩ => ⟨S1600000x1, .i32⟩
  | .hbm, ⟨42, _⟩ => ⟨S100000x16, .f32⟩
  | .hbm, ⟨43, _⟩ => ⟨S1x16, .f32⟩
  | .hbm, ⟨44, _⟩ => ⟨S100000x16, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x16, .f32⟩
  | .hbm, ⟨54, _⟩ => ⟨S_, .f32⟩
  | .hbm, ⟨55, _⟩ => ⟨S100000x16, .f32⟩
  | .hbm, ⟨56, _⟩ => ⟨S1600000x1, .i32⟩
  | .hbm, ⟨57, _⟩ => ⟨S100000x16, .f32⟩
  | .hbm, ⟨58, _⟩ => ⟨S1x60, .f32⟩
  | .hbm, ⟨59, _⟩ => ⟨S100000x60, .f32⟩
  | .local _ .vmem, ⟨0, _⟩ => ⟨S5000x48, .f32⟩
  | .local _ .vmem, ⟨1, _⟩ => ⟨S5000x48, .f32⟩
  | .local _ .vmem, ⟨2, _⟩ => ⟨S5000x48, .f32⟩
  | .local _ .vmem, ⟨3, _⟩ => ⟨S5000x48, .f32⟩
  | .local _ .vmem, ⟨4, _⟩ => ⟨S48x16, .f32⟩
  | .local _ .vmem, ⟨5, _⟩ => ⟨S1x16, .f32⟩
  | .local _ .vmem, ⟨6, _⟩ => ⟨S48x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16x16, .f32⟩
  | .local _ .vmem, ⟨14, _⟩ => ⟨S1x16, .f32⟩
  | .local _ .vmem, ⟨15, _⟩ => ⟨S16x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S16x60, .f32⟩
  | .local _ .vmem, ⟨23, _⟩ => ⟨S1x60, .f32⟩
  | .local _ .vmem, ⟨24, _⟩ => ⟨S16x60, .f32⟩
  | .local _ .vmem, ⟨25, _⟩ => ⟨S5000x60, .f32⟩
  | .local _ .vmem, ⟨26, _⟩ => ⟨S5000x60, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x60 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x60 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x60 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x60 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  shapeCasts_S16_S1x16 : S16.ShapeCasts S1x16
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  bitsLt_bf16_f32 : FTy.bits .bf16 < FTy.bits .f32
  inb_S48x16_S48x16_0_0 : ∀ a, (![0, 0] : Fin 2 → Nat) a + S48x16.size a ≤ S48x16.size a
  h_S48x16 : 0 < S48x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  shapeCasts_S60_S1x60 : S60.ShapeCasts S1x60
  inb_S16x60_S16x60_0_0 : ∀ a, (![0, 0] : Fin 2 → Nat) a + S16x60.size a ≤ S16x60.size a
  h_S16x60 : 0 < S16x60.numel
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S5000x60 : S1x60.Broadcasts S5000x60
  inb_S5000x60_S5000x60_0_0 : ∀ a, (![0, 0] : Fin 2 → Nat) a + S5000x60.size a ≤ S5000x60.size a
  h_S5000x60 : 0 < S5000x60.numel
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S5000x48_S48x16_S5000x16_1_0_0_1_n_n_wf : DotDims.WF S5000x48 S48x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x16_S5000x16_1_0_0_1_n_n_wf : DotDims.WF S5000x16 S16x16 S5000x16 [1] [0] [0] [1] [] []
  dot_S5000x16_S16x60_S5000x60_1_0_0_1_n_n_wf : DotDims.WF S5000x16 S16x60 S5000x60 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x16.size a ≤ S48x16.size a
  hwx0_2 : ∀ i : grid0.Coords, EltTy.bits .f32 = 32 ∨ (Rect.block (s := S48x16) S48x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x16.size a ≤ S48x16.size a
  hwx0_4 : ∀ i : grid0.Coords, EltTy.bits .f32 = 32 ∨ (Rect.block (s := S48x16) S48x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x60.size a ≤ S16x60.size a
  hwx2_2 : ∀ i : grid2.Coords, EltTy.bits .f32 = 32 ∨ (Rect.block (s := S16x60) S16x60.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x60.size a ≤ S1x60.size a
  hwx2_3 : ∀ i : grid2.Coords, EltTy.bits .f32 = 32 ∨ (Rect.block (s := S1x60) S1x60.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x60.size a ≤ S16x60.size a
  hwx2_4 : ∀ i : grid2.Coords, EltTy.bits .f32 = 32 ∨ (Rect.block (s := S16x60) S16x60.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x60.size a ≤ S100000x60.size a
  hwx2_5 : ∀ i : grid2.Coords, EltTy.bits .f32 = 32 ∨ (Rect.block (s := S100000x60) S5000x60.size (cc2_transform_5 i) (hinb2_5 i)).WholeWords (EltTy.packing .f32)

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S5000x48_S48x16_S5000x16_1_0_0_1_n_n : DotDims S5000x48 S48x16 S5000x16 where
  lhsContracting := [1]
  rhsContracting := [0]
  lhsNonContracting := [0]
  rhsNonContracting := [1]
  lhsBatch := []
  rhsBatch := []
  wf := dot_S5000x48_S48x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x60_S5000x60_1_0_0_1_n_n : DotDims S5000x16 S16x60 S5000x60 where
  lhsContracting := [1]
  rhsContracting := [0]
  lhsNonContracting := [0]
  rhsNonContracting := [1]
  lhsBatch := []
  rhsBatch := []
  wf := dot_S5000x16_S16x60_S5000x60_1_0_0_1_n_n_wf

abbrev win0_0 : Pipeline.Window sig grid0 :=
  Pipeline.Window.ofSpec (Memref.whole main_v13) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S48x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S48x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x60.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x60.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S16x60.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x60.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S48x16 : Shape := ⟨2, ![48, 16]⟩
abbrev S16 : Shape := ⟨1, ![16]⟩
abbrev S16x16 : Shape := ⟨2, ![16, 16]⟩
abbrev S16x60 : Shape := ⟨2, ![16, 60]⟩
abbrev S60 : Shape := ⟨1, ![60]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S100000x16 : Shape := ⟨2, ![100000, 16]⟩
abbrev S1x16 : Shape := ⟨2, ![1, 16]⟩
abbrev S1600000x16 : Shape := ⟨2, ![1600000, 16]⟩
abbrev S100000x60 : Shape := ⟨2, ![100000, 60]⟩
abbrev S1x60 : Shape := ⟨2, ![1, 60]⟩

abbrev nBuf : Space → Nat
  | .hbm => 74
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x16, .f32⟩
  | .hbm, ⟨3, _⟩ => ⟨S16, .f32⟩
  | .hbm, ⟨4, _⟩ => ⟨S48x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x60, .f32⟩
  | .hbm, ⟨9, _⟩ => ⟨S60, .f32⟩
  | .hbm, ⟨10, _⟩ => ⟨S16x60, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x48, .f32⟩
  | .hbm, ⟨24, _⟩ => ⟨S_, .f32⟩
  | .hbm, ⟨25, _⟩ => ⟨S100000x48, .f32⟩
  | .hbm, ⟨26, _⟩ => ⟨S1600000x1, .i32⟩
  | .hbm, ⟨27, _⟩ => ⟨S100000x48, .f32⟩
  | .hbm, ⟨28, _⟩ => ⟨S100000x16, .f32⟩
  | .hbm, ⟨29, _⟩ => ⟨S1x16, .f32⟩
  | .hbm, ⟨30, _⟩ => ⟨S100000x16, .f32⟩
  | .hbm, ⟨31, _⟩ => ⟨S100000x16, .f32⟩
  | .hbm, ⟨32, _⟩ => ⟨S100000x16, .f32⟩
  | .hbm, ⟨33, _⟩ => ⟨S100000x16, .f32⟩
  | .hbm, ⟨34, _⟩ => ⟨S100000x16, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x16, .f32⟩
  | .hbm, ⟨44, _⟩ => ⟨S_, .f32⟩
  | .hbm, ⟨45, _⟩ => ⟨S100000x16, .f32⟩
  | .hbm, ⟨46, _⟩ => ⟨S1600000x1, .i32⟩
  | .hbm, ⟨47, _⟩ => ⟨S100000x16, .f32⟩
  | .hbm, ⟨48, _⟩ => ⟨S100000x16, .f32⟩
  | .hbm, ⟨49, _⟩ => ⟨S1x16, .f32⟩
  | .hbm, ⟨50, _⟩ => ⟨S100000x16, .f32⟩
  | .hbm, ⟨51, _⟩ => ⟨S100000x16, .f32⟩
  | .hbm, ⟨52, _⟩ => ⟨S100000x16, .f32⟩
  | .hbm, ⟨53, _⟩ => ⟨S100000x16, .f32⟩
  | .hbm, ⟨54, _⟩ => ⟨S100000x16, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x16, .f32⟩
  | .hbm, ⟨64, _⟩ => ⟨S_, .f32⟩
  | .hbm, ⟨65, _⟩ => ⟨S100000x16, .f32⟩
  | .hbm, ⟨66, _⟩ => ⟨S1600000x1, .i32⟩
  | .hbm, ⟨67, _⟩ => ⟨S100000x16, .f32⟩
  | .hbm, ⟨68, _⟩ => ⟨S100000x60, .f32⟩
  | .hbm, ⟨69, _⟩ => ⟨S1x60, .f32⟩
  | .hbm, ⟨70, _⟩ => ⟨S100000x60, .f32⟩
  | .hbm, ⟨71, _⟩ => ⟨S100000x60, .f32⟩
  | .hbm, ⟨72, _⟩ => ⟨S100000x60, .f32⟩
  | .hbm, ⟨73, _⟩ => ⟨S100000x60, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S60_S1x60_1 : S60.BroadcastsInDim S1x60 (![1] : Fin 1 → Fin S1x60.rank)
  bcast_S1x60_S100000x60_0_1 : S1x60.BroadcastsInDim S100000x60 (![0, 1] : Fin 2 → Fin S100000x60.rank)
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x16_S100000x16_1_0_0_1_n_n_wf : DotDims.WF S100000x48 S48x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x16_S100000x16_1_0_0_1_n_n_wf : DotDims.WF S100000x16 S16x16 S100000x16 [1] [0] [0] [1] [] []
  dot_S100000x16_S16x60_S100000x60_1_0_0_1_n_n_wf : DotDims.WF S100000x16 S16x60 S100000x60 [1] [0] [0] [1] [] []

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x16_S100000x16_1_0_0_1_n_n : DotDims S100000x48 S48x16 S100000x16 where
  lhsContracting := [1]
  rhsContracting := [0]
  lhsNonContracting := [0]
  rhsNonContracting := [1]
  lhsBatch := []
  rhsBatch := []
  wf := dot_S100000x48_S48x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x60_S100000x60_1_0_0_1_n_n : DotDims S100000x16 S16x60 S100000x60 where
  lhsContracting := [1]
  rhsContracting := [0]
  lhsNonContracting := [0]
  rhsNonContracting := [1]
  lhsBatch := []
  rhsBatch := []
  wf := dot_S100000x16_S16x60_S100000x60_1_0_0_1_n_n_wf

class Facts : Prop extends Facts₀ where

variable [Facts]
-- ==== Proof.KernelRun.lean ====
/-
  The idealized kernel's run with its result named.

  @main is six segments: three stretches of host operations, each followed by a pallas_call.  Run from a memory m with
  zero counters, every weakly fair execution ends, without a fault, with every unscoped buffer of the TensorCore at
  the contents the fold of the six segments gives it.  Read at @main's result that is the last region's result array
  after its twenty write-backs; read at an argument it is the argument as launched.
-/
import proofs.«156088_j64175401337157_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Named

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibGraphConv.lean ====
/-
  One graph-convolution layer on the extended reals.

  For node features X of shape [a, n], the neighbour sums A of the same shape, two weight matrices Wr, Wo of shape
  [n, b] and a bias row β of shape [1, b], the layer's entry (p, e) before its activation is

      (Σ_k A(p,k)·Wr(k,e) + Σ_k X(p,k)·Wo(k,e)) + β(0,e).

  Written with the bias added between the two products, (Σ_k A·Wr + β) + Σ_k X·Wo, it is the same extended real:
  addition there is commutative and associative (no finiteness is needed).  The vector spelling of the layer on a
  block of rows — two matrix-unit products of operands narrowed to a shorter float format, into zero accumulators,
  added, plus the bias row laid along the rows — reads exactly that entry (block_apply), for any block height, any
  widths and any operand formats, over any dimension record equal to "contract axis 1 with axis 0".

  General: it names no program.  It imports the rows-against-columns product by module path, so a copy changes that
  one import line to its own unit and copies LibColsMatmul.lean beside it.
-/
import Idealize.ShloMosaic.PureOps.Ideal.Laws
import Idealize.ShloMosaic.Lib.ValueIdx
import Idealize.ShloMosaic.Lib.ValueLayout
import Idealize.ShloMosaic.Lib.Pipeline.Value
import proofs.«156088_j64175401337157_1_alg».proof.Proof.LibColsMatmul

noncomputable section

namespace Cert.GraphConv

open Idealize.ShloMosaic Idealize.ShloMosaic.ValueIdx Cert.ColsMatmul

variable {a n b : ℕ}

/-- The layer's entry (p, e) before the activation: neighbour sums against Wr, the node's own features against Wo,
    then the bias. -/
def convAt (A X : (⟨2, ![a, n]⟩ : Shape).Idx → EReal) (Wr Wo : (⟨2, ![n, b]⟩ : Shape).Idx → EReal)
    (β : (⟨2, ![1, b]⟩ : Shape).Idx → EReal) (p : Fin a) (e : Fin b) : EReal :=
  (∑ k : Fin n, A (ix2 p k) * Wr (ix2 k e) + ∑ k : Fin n, X (ix2 p k) * Wo (ix2 k e)) + β (ix2 (0 : Fin 1) e)

/-- The layer without activation, as a whole array. -/
def conv (A X : (⟨2, ![a, n]⟩ : Shape).Idx → EReal) (Wr Wo : (⟨2, ![n, b]⟩ : Shape).Idx → EReal)
    (β : (⟨2, ![1, b]⟩ : Shape).Idx → EReal) : (⟨2, ![a, b]⟩ : Shape).Idx → EReal :=
  fun j => convAt A X Wr Wo β (j 0) (j 1)

/-- The layer followed by the hyperbolic tangent, as a whole array. -/
def convTanh (A X : (⟨2, ![a, n]⟩ : Shape).Idx → EReal) (Wr Wo : (⟨2, ![n, b]⟩ : Shape).Idx → EReal)
    (β : (⟨2, ![1, b]⟩ : Shape).Idx → EReal) : (⟨2, ![a, b]⟩ : Shape).Idx → EReal :=
  fun j => Ideal.tanh (convAt A X Wr Wo β (j 0) (j 1))

theorem conv_apply (A X : (⟨2, ![a, n]⟩ : Shape).Idx → EReal) (Wr Wo : (⟨2, ![n, b]⟩ : Shape).Idx → EReal)
    (β : (⟨2, ![1, b]⟩ : Shape).Idx → EReal) (p : Fin a) (e : Fin b) :
    conv A X Wr Wo β (ix2 p e) = convAt A X Wr Wo β p e := rfl

theorem convTanh_apply (A X : (⟨2, ![a, n]⟩ : Shape).Idx → EReal) (Wr Wo : (⟨2, ![n, b]⟩ : Shape).Idx → EReal)
    (β : (⟨2, ![1, b]⟩ : Shape).Idx → EReal) (p : Fin a) (e : Fin b) :
    convTanh A X Wr Wo β (ix2 p e) = Ideal.tanh (convAt A X Wr Wo β p e) := rfl

/-- The bias may be added between the two products: (s + β) + t = (s + t) + β on the extended reals. -/
theorem convAt_bias_between (A X : (⟨2, ![a, n]⟩ : Shape).Idx → EReal) (Wr Wo : (⟨2, ![n, b]⟩ : Shape).Idx → EReal)
    (β : (⟨2, ![1, b]⟩ : Shape).Idx → EReal) (p : Fin a) (e : Fin b) :
    (∑ k : Fin n, A (ix2 p k) * Wr (ix2 k e) + β (ix2 (0 : Fin 1) e)) + ∑ k : Fin n, X (ix2 p k) * Wo (ix2 k e)
      = convAt A X Wr Wo β p e := by
  unfold convAt
  exact add_right_comm _ _ _

/-- The layer's vector spelling on a block of r rows, read at (p, e): both products' operands narrowed to any float
    formats, zero accumulators, the two products added, then the bias row broadcast along the rows. -/
theorem block_apply {r : ℕ} {φ₁ φ₂ φ₃ φ₄ : FTy}
    (d : DotDims ⟨2, ![r, n]⟩ ⟨2, ![n, b]⟩ ⟨2, ![r, b]⟩)
    (wf : DotDims.WF ⟨2, ![r, n]⟩ ⟨2, ![n, b]⟩ ⟨2, ![r, b]⟩ [1] [0] [0] [1] [] []) (hd : d = colsDims wf)
    (x0 : FVec Ideal ⟨2, ![r, n]⟩ φ₁) (w2 : FVec Ideal ⟨2, ![n, b]⟩ φ₂)
    (x1 : FVec Ideal ⟨2, ![r, n]⟩ φ₃) (w4 : FVec Ideal ⟨2, ![n, b]⟩ φ₄)
    (β : FVec Ideal ⟨2, ![1, b]⟩ .f32) (hb : (⟨2, ![1, b]⟩ : Shape).Broadcasts ⟨2, ![r, b]⟩) (p : Fin r) (e : Fin b) :
    addf (addf (FloatOps.matmul d none x0 w2 (constant ⟨2, ![r, b]⟩ .f32 0x00000000#32))
               (FloatOps.matmul d none x1 w4 (constant ⟨2, ![r, b]⟩ .f32 0x00000000#32)))
         (broadcastTo ⟨2, ![r, b]⟩ β hb) (ix2 p e)
      = (∑ k : Fin n, x0 (ix2 p k) * w2 (ix2 k e) + ∑ k : Fin n, x1 (ix2 p k) * w4 (ix2 k e)) + β (ix2 (0 : Fin 1) e) := by
  rw [addf_apply, addf_apply, cols_matmul wf d hd x0 w2 p e, cols_matmul wf d hd x1 w4 p e,
    broadcastTo_1b_ab_apply β hb p e]

end Cert.GraphConv

end
-- ==== Proof.Region0.lean ====
/-
  Region 0: what the pallas_call leaves in its result array, as one function of the arrays it is entered with.

  The grid has 20 points; point t reads rows 5000·t … 5000·t + 4999 of the neighbour sums and of the node features,
  the two weight matrices and the bias row whole, and writes rows 5000·t … 5000·t + 4999 of the result.  Every
  entry (5000·t + p, e) of the result is therefore the layer's entry at that row of the whole arrays, and the
  twenty row blocks cover the result array.
-/
import proofs.«156088_j64175401337157_1_alg».proof.Proof.Gen.KernelIdeal.Frame
import proofs.«156088_j64175401337157_1_alg».proof.Proof.LibGraphConv
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.GraphConv Cert.ColsMatmul

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region is entered with. -/
def layer (c : Dev nD) : S100000x16.Idx → EReal :=
  convTanh (a := 100000) (n := 48) (b := 16) (V c main_v13 : S100000x48.Idx → EReal) (V c main_arg0 : S100000x48.Idx → EReal)
    (V c main_arg2 : S48x16.Idx → EReal) (V c main_arg4 : S48x16.Idx → EReal) (V c main_v14 : S1x16.Idx → EReal)

/-- The body's stored value at (p, e) of its blocks. -/
theorem payload_apply (x0 x1 : Vec Ideal S5000x48 .f32) (w2 w4 : Vec Ideal S48x16 .f32) (β : Vec Ideal S1x16 .f32)
    (p : Fin 5000) (e : Fin 16) :
    k0_pay1 x0 x1 w2 w4 β (ix2 p e)
      = Ideal.tanh ((∑ k : Fin 48, x0 (ix2 p k) * w2 (ix2 k e) + ∑ k : Fin 48, x1 (ix2 p k) * w4 (ix2 k e)) + β (ix2 (0 : Fin 1) e)) := by
  unfold k0_pay1
  simp only [shapeCast_self]
  refine congrArg Ideal.tanh ?_
  exact block_apply dot_S5000x48_S48x16_S5000x16_1_0_0_1_n_n (dot_S5000x48_S48x16_S5000x16_1_0_0_1_n_n).wf rfl _ _ _ _ β broadcasts_S1x16_S5000x16 p e

/-- The printed index maps over the grid: row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := by
  have h := t.isLt
  have hN : cfg0.N = 20 := N_0
  omega

/-- Row block t of the neighbour sums. -/
theorem rows_0 (c : Dev nD) (t : Fin cfg0.N) (p : Fin 5000) (k : Fin 48) (hp : 5000 * t.val + p.val < 100000) :
    (iblk0 V c 0 t : Vec Ideal S5000x48 .f32) (ix2 p k) = (V c main_v13 : S100000x48.Idx → EReal) (ix2 ⟨5000 * t.val + p.val, hp⟩ k) := by
  obtain ⟨e0, e1, -⟩ := idx_facts t
  unfold iblk0
  rw [View.read_apply]
  show V c main_v13 _ = V c main_v13 _
  refine congrArg (V c main_v13) ?_
  funext ax
  apply Fin.ext
  match ax with
  | ⟨0, _⟩ => show win0_0.index t (0 : Fin 2) * 5000 + 1 * p.val = 5000 * t.val + p.val; rw [e0]; omega
  | ⟨1, _⟩ => show win0_0.index t (1 : Fin 2) * 48 + 1 * k.val = k.val; rw [e1]; omega

/-- Row block t of the node features. -/
theorem rows_1 (c : Dev nD) (t : Fin cfg0.N) (p : Fin 5000) (k : Fin 48) (hp : 5000 * t.val + p.val < 100000) :
    (iblk0 V c 1 t : Vec Ideal S5000x48 .f32) (ix2 p k) = (V c main_arg0 : S100000x48.Idx → EReal) (ix2 ⟨5000 * t.val + p.val, hp⟩ k) := by
  obtain ⟨-, -, e0, e1, -⟩ := idx_facts t
  unfold iblk0
  rw [View.read_apply]
  show V c main_arg0 _ = V c main_arg0 _
  refine congrArg (V c main_arg0) ?_
  funext ax
  apply Fin.ext
  match ax with
  | ⟨0, _⟩ => show win0_1.index t (0 : Fin 2) * 5000 + 1 * p.val = 5000 * t.val + p.val; rw [e0]; omega
  | ⟨1, _⟩ => show win0_1.index t (1 : Fin 2) * 48 + 1 * k.val = k.val; rw [e1]; omega

/-- The first weight matrix, whole at every point. -/
theorem whole_2 (c : Dev nD) (t : Fin cfg0.N) (k : Fin 48) (e : Fin 16) :
    (iblk0 V c 2 t : Vec Ideal S48x16 .f32) (ix2 k e) = (V c main_arg2 : S48x16.Idx → EReal) (ix2 k e) := by
  obtain ⟨-, -, -, -, e0, e1, -⟩ := idx_facts t
  unfold iblk0
  rw [View.read_apply]
  show V c main_arg2 _ = V c main_arg2 _
  refine congrArg (V c main_arg2) ?_
  funext ax
  apply Fin.ext
  match ax with
  | ⟨0, _⟩ => show win0_2.index t (0 : Fin 2) * 48 + 1 * k.val = k.val; rw [e0]; omega
  | ⟨1, _⟩ => show win0_2.index t (1 : Fin 2) * 16 + 1 * e.val = e.val; rw [e1]; omega

/-- The bias row, whole at every point. -/
theorem whole_3 (c : Dev nD) (t : Fin cfg0.N) (u : Fin 1) (e : Fin 16) :
    (iblk0 V c 3 t : Vec Ideal S1x16 .f32) (ix2 u e) = (V c main_v14 : S1x16.Idx → EReal) (ix2 u e) := by
  obtain ⟨-, -, -, -, -, -, e0, e1, -⟩ := idx_facts t
  unfold iblk0
  rw [View.read_apply]
  show V c main_v14 _ = V c main_v14 _
  refine congrArg (V c main_v14) ?_
  funext ax
  apply Fin.ext
  match ax with
  | ⟨0, _⟩ => show win0_3.index t (0 : Fin 2) * 1 + 1 * u.val = u.val; rw [e0]; omega
  | ⟨1, _⟩ => show win0_3.index t (1 : Fin 2) * 16 + 1 * e.val = e.val; rw [e1]; omega

/-- The second weight matrix, whole at every point. -/
theorem whole_4 (c : Dev nD) (t : Fin cfg0.N) (k : Fin 48) (e : Fin 16) :
    (iblk0 V c 4 t : Vec Ideal S48x16 .f32) (ix2 k e) = (V c main_arg4 : S48x16.Idx → EReal) (ix2 k e) := by
  obtain ⟨-, -, -, -, -, -, -, -, e0, e1, -⟩ := idx_facts t
  unfold iblk0
  rw [View.read_apply]
  show V c main_arg4 _ = V c main_arg4 _
  refine congrArg (V c main_arg4) ?_
  funext ax
  apply Fin.ext
  match ax with
  | ⟨0, _⟩ => show win0_4.index t (0 : Fin 2) * 48 + 1 * k.val = k.val; rw [e0]; omega
  | ⟨1, _⟩ => show win0_4.index t (1 : Fin 2) * 16 + 1 * e.val = e.val; rw [e1]; omega

/-- Where entry (p, e) of the result's block at point t sits in the result array. -/
theorem out_emb (t : Fin cfg0.N) (p : Fin 5000) (e : Fin 16) (hp : 5000 * t.val + p.val < 100000) :
    ((cfg0.win 5).blk t).view.emb (ix2 p e) = (ix2 ⟨5000 * t.val + p.val, hp⟩ e : S100000x16.Idx) := by
  obtain ⟨-, -, -, -, -, -, -, -, -, -, e0, e1⟩ := idx_facts t
  funext ax
  apply Fin.ext
  match ax with
  | ⟨0, _⟩ => show win0_5.index t (0 : Fin 2) * 5000 + 1 * p.val = 5000 * t.val + p.val; rw [e0]; omega
  | ⟨1, _⟩ => show win0_5.index t (1 : Fin 2) * 16 + 1 * e.val = e.val; rw [e1]; omega

/-- What point t writes back is block t of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S5000x48) hz, View.ld_unit_zero (S := S48x16) hz, View.ld_unit_zero (S := S1x16) hz]
  funext j
  obtain ⟨p, e, rfl⟩ : ∃ (p : Fin 5000) (e : Fin 16), j = ix2 p e := ⟨j 0, j 1, eq_ix2 j⟩
  have ht := point_lt t
  have hp : 5000 * t.val + p.val < 100000 := by have := p.isLt; omega
  rw [View.read_apply, out_emb t p e hp]
  show k0_pay1 (iblk0 V c 0 t) (iblk0 V c 1 t) (iblk0 V c 2 t) (iblk0 V c 4 t) (iblk0 V c 3 t) (ix2 p e) = _
  refine (payload_apply (iblk0 V c 0 t) (iblk0 V c 1 t) (iblk0 V c 2 t) (iblk0 V c 4 t) (iblk0 V c 3 t) p e).trans ?_
  unfold layer
  rw [convTanh_apply]
  unfold convAt
  simp only [rows_0 V c t p _ hp, rows_1 V c t p _ hp, whole_2 V c t, whole_3 V c t, whole_4 V c t, cast_eq]

/-- An index of the result array is in point t's block iff its row is among the block's 5000 rows. -/
theorem mem_blk (t : Fin cfg0.N) (i : S100000x16.Idx) :
    i ∈ ((cfg0.win 5).blk t).view.set ↔ ∀ ax : Fin 2, win0_5.index t ax * S5000x16.size ax ≤ (i ax).val ∧ (i ax).val < win0_5.index t ax * S5000x16.size ax + S5000x16.size ax := by
  show i ∈ ((View.whole main_v15).slice (win0_5.rect t)).set ↔ _
  rw [View.set_slice_whole, Rect.mem_set_unit]
  exact Iff.rfl

/-- Every row of the result is in the block of the point its row number divided by 5000 names. -/
theorem cover (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 20 := N_0
  let t : Fin cfg0.N := ⟨(i 0).val / 5000, by omega⟩
  obtain ⟨-, -, -, -, -, -, -, -, -, -, e0, e1⟩ := idx_facts t
  refine ⟨t, flush0_5 t, ?_⟩
  rw [mem_blk]
  intro ax
  match ax with
  | ⟨0, _⟩ => show win0_5.index t (0 : Fin 2) * 5000 ≤ (i 0).val ∧ (i 0).val < win0_5.index t (0 : Fin 2) * 5000 + 5000
              rw [e0]; show (i 0).val / 5000 * 5000 ≤ (i 0).val ∧ (i 0).val < (i 0).val / 5000 * 5000 + 5000; omega
  | ⟨1, _⟩ => show win0_5.index t (1 : Fin 2) * 16 ≤ (i 1).val ∧ (i 1).val < win0_5.index t (1 : Fin 2) * 16 + 16
              rw [e1]; omega

/-- The result array after the region: the layer of the arrays the region was entered with. -/
theorem final (c : Dev nD) : (dat0 V c).arrAt 5 cfg0.N = layer V c :=
  (dat0 V c).arrAt_eq_of_cover 5 (layer V c) (fun t _ => flushed_eq V c t) cover

/-- The same with the entry arrays named. -/
theorem final_of (c : Dev nD) {A X : S100000x48.Idx → EReal} {Wr Wo : S48x16.Idx → EReal} {β : S1x16.Idx → EReal}
    (h0 : (V c main_v13 : S100000x48.Idx → EReal) = A) (h1 : (V c main_arg0 : S100000x48.Idx → EReal) = X)
    (h2 : (V c main_arg2 : S48x16.Idx → EReal) = Wr) (h4 : (V c main_arg4 : S48x16.Idx → EReal) = Wo)
    (h3 : (V c main_v14 : S1x16.Idx → EReal) = β) :
    (dat0 V c).arrAt 5 cfg0.N = convTanh (a := 100000) (n := 48) (b := 16) A X Wr Wo β := by
  subst h0 h1 h2 h4 h3
  exact final V c

end Cert.KernelIdeal.Region0

end
-- ==== Proof.Region1.lean ====
/-
  Region 1: what the pallas_call leaves in its result array, as one function of the arrays it is entered with.

  The grid has 20 points; point t reads rows 5000·t … 5000·t + 4999 of the neighbour sums and of the node features,
  the two weight matrices and the bias row whole, and writes rows 5000·t … 5000·t + 4999 of the result.  Every
  entry (5000·t + p, e) of the result is therefore the layer's entry at that row of the whole arrays, and the
  twenty row blocks cover the result array.
-/
import proofs.«156088_j64175401337157_1_alg».proof.Proof.Gen.KernelIdeal.Frame
import proofs.«156088_j64175401337157_1_alg».proof.Proof.LibGraphConv
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.GraphConv Cert.ColsMatmul

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region is entered with. -/
def layer (c : Dev nD) : S100000x16.Idx → EReal :=
  convTanh (a := 100000) (n := 16) (b := 16) (V c main_v25 : S100000x16.Idx → EReal) (V c main_v15 : S100000x16.Idx → EReal)
    (V c main_arg5 : S16x16.Idx → EReal) (V c main_arg7 : S16x16.Idx → EReal) (V c main_v26 : S1x16.Idx → EReal)

/-- The body's stored value at (p, e) of its blocks. -/
theorem payload_apply (x0 x1 : Vec Ideal S5000x16 .f32) (w2 w4 : Vec Ideal S16x16 .f32) (β : Vec Ideal S1x16 .f32)
    (p : Fin 5000) (e : Fin 16) :
    k1_pay1 x0 x1 w2 w4 β (ix2 p e)
      = Ideal.tanh ((∑ k : Fin 16, x0 (ix2 p k) * w2 (ix2 k e) + ∑ k : Fin 16, x1 (ix2 p k) * w4 (ix2 k e)) + β (ix2 (0 : Fin 1) e)) := by
  unfold k1_pay1
  simp only [shapeCast_self]
  refine congrArg Ideal.tanh ?_
  exact block_apply dot_S5000x16_S16x16_S5000x16_1_0_0_1_n_n (dot_S5000x16_S16x16_S5000x16_1_0_0_1_n_n).wf rfl _ _ _ _ β broadcasts_S1x16_S5000x16 p e

/-- The printed index maps over the grid: row blocks move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := by
  have h := t.isLt
  have hN : cfg1.N = 20 := N_1
  omega

/-- Row block t of the neighbour sums. -/
theorem rows_0 (c : Dev nD) (t : Fin cfg1.N) (p : Fin 5000) (k : Fin 16) (hp : 5000 * t.val + p.val < 100000) :
    (iblk1 V c 0 t : Vec Ideal S5000x16 .f32) (ix2 p k) = (V c main_v25 : S100000x16.Idx → EReal) (ix2 ⟨5000 * t.val + p.val, hp⟩ k) := by
  obtain ⟨e0, e1, -⟩ := idx_facts t
  unfold iblk1
  rw [View.read_apply]
  show V c main_v25 _ = V c main_v25 _
  refine congrArg (V c main_v25) ?_
  funext ax
  apply Fin.ext
  match ax with
  | ⟨0, _⟩ => show win1_0.index t (0 : Fin 2) * 5000 + 1 * p.val = 5000 * t.val + p.val; rw [e0]; omega
  | ⟨1, _⟩ => show win1_0.index t (1 : Fin 2) * 16 + 1 * k.val = k.val; rw [e1]; omega

/-- Row block t of the node features. -/
theorem rows_1 (c : Dev nD) (t : Fin cfg1.N) (p : Fin 5000) (k : Fin 16) (hp : 5000 * t.val + p.val < 100000) :
    (iblk1 V c 1 t : Vec Ideal S5000x16 .f32) (ix2 p k) = (V c main_v15 : S100000x16.Idx → EReal) (ix2 ⟨5000 * t.val + p.val, hp⟩ k) := by
  obtain ⟨-, -, e0, e1, -⟩ := idx_facts t
  unfold iblk1
  rw [View.read_apply]
  show V c main_v15 _ = V c main_v15 _
  refine congrArg (V c main_v15) ?_
  funext ax
  apply Fin.ext
  match ax with
  | ⟨0, _⟩ => show win1_1.index t (0 : Fin 2) * 5000 + 1 * p.val = 5000 * t.val + p.val; rw [e0]; omega
  | ⟨1, _⟩ => show win1_1.index t (1 : Fin 2) * 16 + 1 * k.val = k.val; rw [e1]; omega

/-- The first weight matrix, whole at every point. -/
theorem whole_2 (c : Dev nD) (t : Fin cfg1.N) (k : Fin 16) (e : Fin 16) :
    (iblk1 V c 2 t : Vec Ideal S16x16 .f32) (ix2 k e) = (V c main_arg5 : S16x16.Idx → EReal) (ix2 k e) := by
  obtain ⟨-, -, -, -, e0, e1, -⟩ := idx_facts t
  unfold iblk1
  rw [View.read_apply]
  show V c main_arg5 _ = V c main_arg5 _
  refine congrArg (V c main_arg5) ?_
  funext ax
  apply Fin.ext
  match ax with
  | ⟨0, _⟩ => show win1_2.index t (0 : Fin 2) * 16 + 1 * k.val = k.val; rw [e0]; omega
  | ⟨1, _⟩ => show win1_2.index t (1 : Fin 2) * 16 + 1 * e.val = e.val; rw [e1]; omega

/-- The bias row, whole at every point. -/
theorem whole_3 (c : Dev nD) (t : Fin cfg1.N) (u : Fin 1) (e : Fin 16) :
    (iblk1 V c 3 t : Vec Ideal S1x16 .f32) (ix2 u e) = (V c main_v26 : S1x16.Idx → EReal) (ix2 u e) := by
  obtain ⟨-, -, -, -, -, -, e0, e1, -⟩ := idx_facts t
  unfold iblk1
  rw [View.read_apply]
  show V c main_v26 _ = V c main_v26 _
  refine congrArg (V c main_v26) ?_
  funext ax
  apply Fin.ext
  match ax with
  | ⟨0, _⟩ => show win1_3.index t (0 : Fin 2) * 1 + 1 * u.val = u.val; rw [e0]; omega
  | ⟨1, _⟩ => show win1_3.index t (1 : Fin 2) * 16 + 1 * e.val = e.val; rw [e1]; omega

/-- The second weight matrix, whole at every point. -/
theorem whole_4 (c : Dev nD) (t : Fin cfg1.N) (k : Fin 16) (e : Fin 16) :
    (iblk1 V c 4 t : Vec Ideal S16x16 .f32) (ix2 k e) = (V c main_arg7 : S16x16.Idx → EReal) (ix2 k e) := by
  obtain ⟨-, -, -, -, -, -, -, -, e0, e1, -⟩ := idx_facts t
  unfold iblk1
  rw [View.read_apply]
  show V c main_arg7 _ = V c main_arg7 _
  refine congrArg (V c main_arg7) ?_
  funext ax
  apply Fin.ext
  match ax with
  | ⟨0, _⟩ => show win1_4.index t (0 : Fin 2) * 16 + 1 * k.val = k.val; rw [e0]; omega
  | ⟨1, _⟩ => show win1_4.index t (1 : Fin 2) * 16 + 1 * e.val = e.val; rw [e1]; omega

/-- Where entry (p, e) of the result's block at point t sits in the result array. -/
theorem out_emb (t : Fin cfg1.N) (p : Fin 5000) (e : Fin 16) (hp : 5000 * t.val + p.val < 100000) :
    ((cfg1.win 5).blk t).view.emb (ix2 p e) = (ix2 ⟨5000 * t.val + p.val, hp⟩ e : S100000x16.Idx) := by
  obtain ⟨-, -, -, -, -, -, -, -, -, -, e0, e1⟩ := idx_facts t
  funext ax
  apply Fin.ext
  match ax with
  | ⟨0, _⟩ => show win1_5.index t (0 : Fin 2) * 5000 + 1 * p.val = 5000 * t.val + p.val; rw [e0]; omega
  | ⟨1, _⟩ => show win1_5.index t (1 : Fin 2) * 16 + 1 * e.val = e.val; rw [e1]; omega

/-- What point t writes back is block t of the layer of the whole arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S5000x16) hz, View.ld_unit_zero (S := S16x16) hz, View.ld_unit_zero (S := S1x16) hz]
  funext j
  obtain ⟨p, e, rfl⟩ : ∃ (p : Fin 5000) (e : Fin 16), j = ix2 p e := ⟨j 0, j 1, eq_ix2 j⟩
  have ht := point_lt t
  have hp : 5000 * t.val + p.val < 100000 := by have := p.isLt; omega
  rw [View.read_apply, out_emb t p e hp]
  show k1_pay1 (iblk1 V c 0 t) (iblk1 V c 1 t) (iblk1 V c 2 t) (iblk1 V c 4 t) (iblk1 V c 3 t) (ix2 p e) = _
  refine (payload_apply (iblk1 V c 0 t) (iblk1 V c 1 t) (iblk1 V c 2 t) (iblk1 V c 4 t) (iblk1 V c 3 t) p e).trans ?_
  unfold layer
  rw [convTanh_apply]
  unfold convAt
  simp only [rows_0 V c t p _ hp, rows_1 V c t p _ hp, whole_2 V c t, whole_3 V c t, whole_4 V c t, cast_eq]

/-- An index of the result array is in point t's block iff its row is among the block's 5000 rows. -/
theorem mem_blk (t : Fin cfg1.N) (i : S100000x16.Idx) :
    i ∈ ((cfg1.win 5).blk t).view.set ↔ ∀ ax : Fin 2, win1_5.index t ax * S5000x16.size ax ≤ (i ax).val ∧ (i ax).val < win1_5.index t ax * S5000x16.size ax + S5000x16.size ax := by
  show i ∈ ((View.whole main_v27).slice (win1_5.rect t)).set ↔ _
  rw [View.set_slice_whole, Rect.mem_set_unit]
  exact Iff.rfl

/-- Every row of the result is in the block of the point its row number divided by 5000 names. -/
theorem cover (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 20 := N_1
  let t : Fin cfg1.N := ⟨(i 0).val / 5000, by omega⟩
  obtain ⟨-, -, -, -, -, -, -, -, -, -, e0, e1⟩ := idx_facts t
  refine ⟨t, flush1_5 t, ?_⟩
  rw [mem_blk]
  intro ax
  match ax with
  | ⟨0, _⟩ => show win1_5.index t (0 : Fin 2) * 5000 ≤ (i 0).val ∧ (i 0).val < win1_5.index t (0 : Fin 2) * 5000 + 5000
              rw [e0]; show (i 0).val / 5000 * 5000 ≤ (i 0).val ∧ (i 0).val < (i 0).val / 5000 * 5000 + 5000; omega
  | ⟨1, _⟩ => show win1_5.index t (1 : Fin 2) * 16 ≤ (i 1).val ∧ (i 1).val < win1_5.index t (1 : Fin 2) * 16 + 16
              rw [e1]; omega

/-- The result array after the region: the layer of the arrays the region was entered with. -/
theorem final (c : Dev nD) : (dat1 V c).arrAt 5 cfg1.N = layer V c :=
  (dat1 V c).arrAt_eq_of_cover 5 (layer V c) (fun t _ => flushed_eq V c t) cover

/-- The same with the entry arrays named. -/
theorem final_of (c : Dev nD) {A X : S100000x16.Idx → EReal} {Wr Wo : S16x16.Idx → EReal} {β : S1x16.Idx → EReal}
    (h0 : (V c main_v25 : S100000x16.Idx → EReal) = A) (h1 : (V c main_v15 : S100000x16.Idx → EReal) = X)
    (h2 : (V c main_arg5 : S16x16.Idx → EReal) = Wr) (h4 : (V c main_arg7 : S16x16.Idx → EReal) = Wo)
    (h3 : (V c main_v26 : S1x16.Idx → EReal) = β) :
    (dat1 V c).arrAt 5 cfg1.N = convTanh (a := 100000) (n := 16) (b := 16) A X Wr Wo β := by
  subst h0 h1 h2 h4 h3
  exact final V c

end Cert.KernelIdeal.Region1

end
-- ==== Proof.Region2.lean ====
/-
  Region 2: what the pallas_call leaves in its result array, as one function of the arrays it is entered with.

  The grid has 20 points; point t reads rows 5000·t … 5000·t + 4999 of the neighbour sums and of the node features,
  the two weight matrices and the bias row whole, and writes rows 5000·t … 5000·t + 4999 of the result.  Every
  entry (5000·t + p, e) of the result is therefore the layer's entry at that row of the whole arrays, and the
  twenty row blocks cover the result array.
-/
import proofs.«156088_j64175401337157_1_alg».proof.Proof.Gen.KernelIdeal.Frame
import proofs.«156088_j64175401337157_1_alg».proof.Proof.LibGraphConv
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.GraphConv Cert.ColsMatmul

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region is entered with. -/
def layer (c : Dev nD) : S100000x60.Idx → EReal :=
  conv (a := 100000) (n := 16) (b := 60) (V c main_v37 : S100000x16.Idx → EReal) (V c main_v27 : S100000x16.Idx → EReal)
    (V c main_arg8 : S16x60.Idx → EReal) (V c main_arg10 : S16x60.Idx → EReal) (V c main_v38 : S1x60.Idx → EReal)

/-- The body's stored value at (p, e) of its blocks. -/
theorem payload_apply (x0 x1 : Vec Ideal S5000x16 .f32) (w2 w4 : Vec Ideal S16x60 .f32) (β : Vec Ideal S1x60 .f32)
    (p : Fin 5000) (e : Fin 60) :
    k2_pay1 x0 x1 w2 w4 β (ix2 p e)
      = ((∑ k : Fin 16, x0 (ix2 p k) * w2 (ix2 k e) + ∑ k : Fin 16, x1 (ix2 p k) * w4 (ix2 k e)) + β (ix2 (0 : Fin 1) e)) := by
  unfold k2_pay1
  simp only [shapeCast_self]

  exact block_apply dot_S5000x16_S16x60_S5000x60_1_0_0_1_n_n (dot_S5000x16_S16x60_S5000x60_1_0_0_1_n_n).wf rfl _ _ _ _ β broadcasts_S1x60_S5000x60 p e

/-- The printed index maps over the grid: row blocks move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 20 := by
  have h := t.isLt
  have hN : cfg2.N = 20 := N_2
  omega

/-- Row block t of the neighbour sums. -/
theorem rows_0 (c : Dev nD) (t : Fin cfg2.N) (p : Fin 5000) (k : Fin 16) (hp : 5000 * t.val + p.val < 100000) :
    (iblk2 V c 0 t : Vec Ideal S5000x16 .f32) (ix2 p k) = (V c main_v37 : S100000x16.Idx → EReal) (ix2 ⟨5000 * t.val + p.val, hp⟩ k) := by
  obtain ⟨e0, e1, -⟩ := idx_facts t
  unfold iblk2
  rw [View.read_apply]
  show V c main_v37 _ = V c main_v37 _
  refine congrArg (V c main_v37) ?_
  funext ax
  apply Fin.ext
  match ax with
  | ⟨0, _⟩ => show win2_0.index t (0 : Fin 2) * 5000 + 1 * p.val = 5000 * t.val + p.val; rw [e0]; omega
  | ⟨1, _⟩ => show win2_0.index t (1 : Fin 2) * 16 + 1 * k.val = k.val; rw [e1]; omega

/-- Row block t of the node features. -/
theorem rows_1 (c : Dev nD) (t : Fin cfg2.N) (p : Fin 5000) (k : Fin 16) (hp : 5000 * t.val + p.val < 100000) :
    (iblk2 V c 1 t : Vec Ideal S5000x16 .f32) (ix2 p k) = (V c main_v27 : S100000x16.Idx → EReal) (ix2 ⟨5000 * t.val + p.val, hp⟩ k) := by
  obtain ⟨-, -, e0, e1, -⟩ := idx_facts t
  unfold iblk2
  rw [View.read_apply]
  show V c main_v27 _ = V c main_v27 _
  refine congrArg (V c main_v27) ?_
  funext ax
  apply Fin.ext
  match ax with
  | ⟨0, _⟩ => show win2_1.index t (0 : Fin 2) * 5000 + 1 * p.val = 5000 * t.val + p.val; rw [e0]; omega
  | ⟨1, _⟩ => show win2_1.index t (1 : Fin 2) * 16 + 1 * k.val = k.val; rw [e1]; omega

/-- The first weight matrix, whole at every point. -/
theorem whole_2 (c : Dev nD) (t : Fin cfg2.N) (k : Fin 16) (e : Fin 60) :
    (iblk2 V c 2 t : Vec Ideal S16x60 .f32) (ix2 k e) = (V c main_arg8 : S16x60.Idx → EReal) (ix2 k e) := by
  obtain ⟨-, -, -, -, e0, e1, -⟩ := idx_facts t
  unfold iblk2
  rw [View.read_apply]
  show V c main_arg8 _ = V c main_arg8 _
  refine congrArg (V c main_arg8) ?_
  funext ax
  apply Fin.ext
  match ax with
  | ⟨0, _⟩ => show win2_2.index t (0 : Fin 2) * 16 + 1 * k.val = k.val; rw [e0]; omega
  | ⟨1, _⟩ => show win2_2.index t (1 : Fin 2) * 60 + 1 * e.val = e.val; rw [e1]; omega

/-- The bias row, whole at every point. -/
theorem whole_3 (c : Dev nD) (t : Fin cfg2.N) (u : Fin 1) (e : Fin 60) :
    (iblk2 V c 3 t : Vec Ideal S1x60 .f32) (ix2 u e) = (V c main_v38 : S1x60.Idx → EReal) (ix2 u e) := by
  obtain ⟨-, -, -, -, -, -, e0, e1, -⟩ := idx_facts t
  unfold iblk2
  rw [View.read_apply]
  show V c main_v38 _ = V c main_v38 _
  refine congrArg (V c main_v38) ?_
  funext ax
  apply Fin.ext
  match ax with
  | ⟨0, _⟩ => show win2_3.index t (0 : Fin 2) * 1 + 1 * u.val = u.val; rw [e0]; omega
  | ⟨1, _⟩ => show win2_3.index t (1 : Fin 2) * 60 + 1 * e.val = e.val; rw [e1]; omega

/-- The second weight matrix, whole at every point. -/
theorem whole_4 (c : Dev nD) (t : Fin cfg2.N) (k : Fin 16) (e : Fin 60) :
    (iblk2 V c 4 t : Vec Ideal S16x60 .f32) (ix2 k e) = (V c main_arg10 : S16x60.Idx → EReal) (ix2 k e) := by
  obtain ⟨-, -, -, -, -, -, -, -, e0, e1, -⟩ := idx_facts t
  unfold iblk2
  rw [View.read_apply]
  show V c main_arg10 _ = V c main_arg10 _
  refine congrArg (V c main_arg10) ?_
  funext ax
  apply Fin.ext
  match ax with
  | ⟨0, _⟩ => show win2_4.index t (0 : Fin 2) * 16 + 1 * k.val = k.val; rw [e0]; omega
  | ⟨1, _⟩ => show win2_4.index t (1 : Fin 2) * 60 + 1 * e.val = e.val; rw [e1]; omega

/-- Where entry (p, e) of the result's block at point t sits in the result array. -/
theorem out_emb (t : Fin cfg2.N) (p : Fin 5000) (e : Fin 60) (hp : 5000 * t.val + p.val < 100000) :
    ((cfg2.win 5).blk t).view.emb (ix2 p e) = (ix2 ⟨5000 * t.val + p.val, hp⟩ e : S100000x60.Idx) := by
  obtain ⟨-, -, -, -, -, -, -, -, -, -, e0, e1⟩ := idx_facts t
  funext ax
  apply Fin.ext
  match ax with
  | ⟨0, _⟩ => show win2_5.index t (0 : Fin 2) * 5000 + 1 * p.val = 5000 * t.val + p.val; rw [e0]; omega
  | ⟨1, _⟩ => show win2_5.index t (1 : Fin 2) * 60 + 1 * e.val = e.val; rw [e1]; omega

/-- What point t writes back is block t of the layer of the whole arrays. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero hz]
  simp only [View.ld_unit_zero (S := S5000x16) hz, View.ld_unit_zero (S := S16x60) hz, View.ld_unit_zero (S := S1x60) hz]
  funext j
  obtain ⟨p, e, rfl⟩ : ∃ (p : Fin 5000) (e : Fin 60), j = ix2 p e := ⟨j 0, j 1, eq_ix2 j⟩
  have ht := point_lt t
  have hp : 5000 * t.val + p.val < 100000 := by have := p.isLt; omega
  rw [View.read_apply, out_emb t p e hp]
  show k2_pay1 (iblk2 V c 0 t) (iblk2 V c 1 t) (iblk2 V c 2 t) (iblk2 V c 4 t) (iblk2 V c 3 t) (ix2 p e) = _
  refine (payload_apply (iblk2 V c 0 t) (iblk2 V c 1 t) (iblk2 V c 2 t) (iblk2 V c 4 t) (iblk2 V c 3 t) p e).trans ?_
  unfold layer
  rw [conv_apply]
  unfold convAt
  simp only [rows_0 V c t p _ hp, rows_1 V c t p _ hp, whole_2 V c t, whole_3 V c t, whole_4 V c t, cast_eq]

/-- An index of the result array is in point t's block iff its row is among the block's 5000 rows. -/
theorem mem_blk (t : Fin cfg2.N) (i : S100000x60.Idx) :
    i ∈ ((cfg2.win 5).blk t).view.set ↔ ∀ ax : Fin 2, win2_5.index t ax * S5000x60.size ax ≤ (i ax).val ∧ (i ax).val < win2_5.index t ax * S5000x60.size ax + S5000x60.size ax := by
  show i ∈ ((View.whole main_v39).slice (win2_5.rect t)).set ↔ _
  rw [View.set_slice_whole, Rect.mem_set_unit]
  exact Iff.rfl

/-- Every row of the result is in the block of the point its row number divided by 5000 names. -/
theorem cover (i : S100000x60.Idx) : ∃ t : Fin cfg2.N, (cfg2.win 5).flush t = true ∧ i ∈ ((cfg2.win 5).blk t).view.set := by
  have hi0 : (i 0).val < 100000 := (i 0).isLt
  have hi1 : (i 1).val < 60 := (i 1).isLt
  have hN : cfg2.N = 20 := N_2
  let t : Fin cfg2.N := ⟨(i 0).val / 5000, by omega⟩
  obtain ⟨-, -, -, -, -, -, -, -, -, -, e0, e1⟩ := idx_facts t
  refine ⟨t, flush2_5 t, ?_⟩
  rw [mem_blk]
  intro ax
  match ax with
  | ⟨0, _⟩ => show win2_5.index t (0 : Fin 2) * 5000 ≤ (i 0).val ∧ (i 0).val < win2_5.index t (0 : Fin 2) * 5000 + 5000
              rw [e0]; show (i 0).val / 5000 * 5000 ≤ (i 0).val ∧ (i 0).val < (i 0).val / 5000 * 5000 + 5000; omega
  | ⟨1, _⟩ => show win2_5.index t (1 : Fin 2) * 60 ≤ (i 1).val ∧ (i 1).val < win2_5.index t (1 : Fin 2) * 60 + 60
              rw [e1]; omega

/-- The result array after the region: the layer of the arrays the region was entered with. -/
theorem final (c : Dev nD) : (dat2 V c).arrAt 5 cfg2.N = layer V c :=
  (dat2 V c).arrAt_eq_of_cover 5 (layer V c) (fun t _ => flushed_eq V c t) cover

/-- The same with the entry arrays named. -/
theorem final_of (c : Dev nD) {A X : S100000x16.Idx → EReal} {Wr Wo : S16x60.Idx → EReal} {β : S1x60.Idx → EReal}
    (h0 : (V c main_v37 : S100000x16.Idx → EReal) = A) (h1 : (V c main_v27 : S100000x16.Idx → EReal) = X)
    (h2 : (V c main_arg8 : S16x60.Idx → EReal) = Wr) (h4 : (V c main_arg10 : S16x60.Idx → EReal) = Wo)
    (h3 : (V c main_v38 : S1x60.Idx → EReal) = β) :
    (dat2 V c).arrAt 5 cfg2.N = conv (a := 100000) (n := 16) (b := 60) A X Wr Wo β := by
  subst h0 h1 h2 h4 h3
  exact final V c

end Cert.KernelIdeal.Region2

end
-- ==== Proof.Net.lean ====
/-
  The three-layer graph network as one function of the arguments.

  An edge list ei : [2, E] gives each edge a source row ei(0, ·) and a destination row ei(1, ·).  The neighbour sum
  of node features h is the scatter-add, by destination, of the rows of h gathered by source (a negative source index
  counted from the end).  Each layer is the graph convolution (LibGraphConv) of the neighbour sums and the features;
  the first two are followed by the hyperbolic tangent.
-/
import proofs.«156088_j64175401337157_1_alg».proof.Proof.Gen.KernelIdeal
import proofs.«156088_j64175401337157_1_alg».proof.Proof.LibGraphConv

noncomputable section

namespace Cert.KernelIdeal.Net

open Idealize.ShloMosaic Cert.KernelIdeal Cert.KernelIdeal.Gen Cert.GraphConv

/-- Integer arrays and float arrays of a shape, as the host operations take them. -/
abbrev I32 (S : Shape) : Type := (⟨S, .i32⟩ : BufTy).Contents (Elt Ideal)
abbrev F32 (S : Shape) : Type := (⟨S, .f32⟩ : BufTy).Contents (Elt Ideal)

/-- The edges' source nodes: row 0 of the edge list. -/
def srcOf (ei : I32 S2x1600000) : I32 S1600000 :=
  shapeCast S1600000 (extractStridedSlice S1x1600000 ![0, 0] ei slices_S2x1600000_S1x1600000_0_0) shapeCasts_S1x1600000_S1600000

/-- The edges' destination nodes: row 1 of the edge list. -/
def dstOf (ei : I32 S2x1600000) : I32 S1600000 :=
  shapeCast S1600000 (extractStridedSlice S1x1600000 ![1, 0] ei slices_S2x1600000_S1x1600000_1_0) shapeCasts_S1x1600000_S1600000

/-- Source indices as a column, a negative index counted from the end of the 100000 nodes. -/
def wrap (s : I32 S1600000) : I32 S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Destination indices as a column. -/
def col (d : I32 S1600000) : I32 S1600000x1 :=
  broadcastInDim S1600000x1 ![0] bcast_S1600000_S1600000x1_0 d

/-- Neighbour sums of 48 features per node. -/
def agg48 (x : F32 S100000x48) (s d : I32 S1600000) : F32 S100000x48 :=
  Host.scatterAdd scatter_S100000x48_S1600000x1_S1600000x48_1_0_0_1
    (broadcastInDim S100000x48 ![] bcast_S_S100000x48 (constant (F := Ideal) S_ .f32 0x00000000#32)) (col d)
    (Host.gather gather_S100000x48_S1600000x1_S1600000x48_1_0_n_n_0_1_148 x (wrap s))

/-- Neighbour sums of 16 features per node. -/
def agg16 (h : F32 S100000x16) (s d : I32 S1600000) : F32 S100000x16 :=
  Host.scatterAdd scatter_S100000x16_S1600000x1_S1600000x16_1_0_0_1
    (broadcastInDim S100000x16 ![] bcast_S_S100000x16 (constant (F := Ideal) S_ .f32 0x00000000#32)) (col d)
    (Host.gather gather_S100000x16_S1600000x1_S1600000x16_1_0_n_n_0_1_116 h (wrap s))

/-- A bias vector as a one-row matrix. -/
def row16 (b : F32 S16) : F32 S1x16 := shapeCast S1x16 b shapeCasts_S16_S1x16
def row60 (b : F32 S60) : F32 S1x60 := shapeCast S1x60 b shapeCasts_S60_S1x60

/-- First layer: 48 features to 16, then tanh. -/
def hidden1 (x : F32 S100000x48) (ei : I32 S2x1600000) (wr : F32 S48x16) (b : F32 S16) (wo : F32 S48x16) : F32 S100000x16 :=
  convTanh (a := 100000) (n := 48) (b := 16) (agg48 x (srcOf ei) (dstOf ei)) x wr wo (row16 b)

/-- Second layer: 16 features to 16, then tanh. -/
def hidden2 (h : F32 S100000x16) (ei : I32 S2x1600000) (wr : F32 S16x16) (b : F32 S16) (wo : F32 S16x16) : F32 S100000x16 :=
  convTanh (a := 100000) (n := 16) (b := 16) (agg16 h (srcOf ei) (dstOf ei)) h wr wo (row16 b)

/-- Last layer: 16 features to 60, no activation. -/
def output (h : F32 S100000x16) (ei : I32 S2x1600000) (wr : F32 S16x60) (b : F32 S60) (wo : F32 S16x60) : F32 S100000x60 :=
  conv (a := 100000) (n := 16) (b := 60) (agg16 h (srcOf ei) (dstOf ei)) h wr wo (row60 b)

/-- The whole network. -/
def net (x : F32 S100000x48) (ei : I32 S2x1600000) (w1r : F32 S48x16) (b1 : F32 S16) (w1o : F32 S48x16)
    (w2r : F32 S16x16) (b2 : F32 S16) (w2o : F32 S16x16) (w3r : F32 S16x60) (b3 : F32 S60) (w3o : F32 S16x60) : F32 S100000x60 :=
  output (hidden2 (hidden1 x ei w1r b1 w1o) ei w2r b2 w2o) ei w3r b3 w3o

end Cert.KernelIdeal.Net

end
-- ==== Proof.KernelValue.lean ====
/-
  What the idealized kernel's run leaves in @main's result, as the network of the arguments.

  The run's buffer contents at the six segment boundaries are a fold through @main.  A stretch of host operations
  computes the edge rows, the neighbour sums and the bias row of the layer that follows and touches nothing else; a
  pallas_call writes its layer into its result array and touches nothing else.  Followed from the launch, the result
  array of the last pallas_call holds the three-layer network of the eleven arguments.
-/
import proofs.«156088_j64175401337157_1_alg».proof.Proof.Gen.KernelIdeal.Frame
import proofs.«156088_j64175401337157_1_alg».proof.Proof.Region0
import proofs.«156088_j64175401337157_1_alg».proof.Proof.Region1
import proofs.«156088_j64175401337157_1_alg».proof.Proof.Region2
import proofs.«156088_j64175401337157_1_alg».proof.Proof.Net
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Value

open Cert.KernelIdeal Cert.KernelIdeal.Gen Cert.KernelIdeal.Net Cert.GraphConv

/-! ## The three stretches of host operations, from any contents W -/

section Stretches
variable (W : Valuation τ sig (Elt Ideal))

theorem s0_src : after hostOps0 W (Proc.devRef .tc main_v1) = srcOf (W (Proc.devRef .tc main_arg1)) := by after_results <;> rfl
theorem s0_dst : after hostOps0 W (Proc.devRef .tc main_v3) = dstOf (W (Proc.devRef .tc main_arg1)) := by after_results <;> rfl
theorem s0_agg : after hostOps0 W (Proc.devRef .tc main_v13)
    = agg48 (W (Proc.devRef .tc main_arg0)) (srcOf (W (Proc.devRef .tc main_arg1))) (dstOf (W (Proc.devRef .tc main_arg1))) := by after_results <;> rfl
theorem s0_row : after hostOps0 W (Proc.devRef .tc main_v14) = row16 (W (Proc.devRef .tc main_arg3)) := by after_results <;> rfl
theorem s0_arg0 : after hostOps0 W (Proc.devRef .tc main_arg0) = W (Proc.devRef .tc main_arg0) := by after_results <;> rfl
theorem s0_arg2 : after hostOps0 W (Proc.devRef .tc main_arg2) = W (Proc.devRef .tc main_arg2) := by after_results <;> rfl
theorem s0_arg4 : after hostOps0 W (Proc.devRef .tc main_arg4) = W (Proc.devRef .tc main_arg4) := by after_results <;> rfl
theorem s0_arg5 : after hostOps0 W (Proc.devRef .tc main_arg5) = W (Proc.devRef .tc main_arg5) := by after_results <;> rfl
theorem s0_arg6 : after hostOps0 W (Proc.devRef .tc main_arg6) = W (Proc.devRef .tc main_arg6) := by after_results <;> rfl
theorem s0_arg7 : after hostOps0 W (Proc.devRef .tc main_arg7) = W (Proc.devRef .tc main_arg7) := by after_results <;> rfl
theorem s0_arg8 : after hostOps0 W (Proc.devRef .tc main_arg8) = W (Proc.devRef .tc main_arg8) := by after_results <;> rfl
theorem s0_arg9 : after hostOps0 W (Proc.devRef .tc main_arg9) = W (Proc.devRef .tc main_arg9) := by after_results <;> rfl
theorem s0_arg10 : after hostOps0 W (Proc.devRef .tc main_arg10) = W (Proc.devRef .tc main_arg10) := by after_results <;> rfl

theorem s1_agg : after hostOps1 W (Proc.devRef .tc main_v25)
    = agg16 (W (Proc.devRef .tc main_v15)) (W (Proc.devRef .tc main_v1)) (W (Proc.devRef .tc main_v3)) := by after_results <;> rfl
theorem s1_row : after hostOps1 W (Proc.devRef .tc main_v26) = row16 (W (Proc.devRef .tc main_arg6)) := by after_results <;> rfl
theorem s1_v15 : after hostOps1 W (Proc.devRef .tc main_v15) = W (Proc.devRef .tc main_v15) := by after_results <;> rfl
theorem s1_v1 : after hostOps1 W (Proc.devRef .tc main_v1) = W (Proc.devRef .tc main_v1) := by after_results <;> rfl
theorem s1_v3 : after hostOps1 W (Proc.devRef .tc main_v3) = W (Proc.devRef .tc main_v3) := by after_results <;> rfl
theorem s1_arg5 : after hostOps1 W (Proc.devRef .tc main_arg5) = W (Proc.devRef .tc main_arg5) := by after_results <;> rfl
theorem s1_arg7 : after hostOps1 W (Proc.devRef .tc main_arg7) = W (Proc.devRef .tc main_arg7) := by after_results <;> rfl
theorem s1_arg8 : after hostOps1 W (Proc.devRef .tc main_arg8) = W (Proc.devRef .tc main_arg8) := by after_results <;> rfl
theorem s1_arg9 : after hostOps1 W (Proc.devRef .tc main_arg9) = W (Proc.devRef .tc main_arg9) := by after_results <;> rfl
theorem s1_arg10 : after hostOps1 W (Proc.devRef .tc main_arg10) = W (Proc.devRef .tc main_arg10) := by after_results <;> rfl

theorem s2_agg : after hostOps2 W (Proc.devRef .tc main_v37)
    = agg16 (W (Proc.devRef .tc main_v27)) (W (Proc.devRef .tc main_v1)) (W (Proc.devRef .tc main_v3)) := by after_results <;> rfl
theorem s2_row : after hostOps2 W (Proc.devRef .tc main_v38) = row60 (W (Proc.devRef .tc main_arg9)) := by after_results <;> rfl
theorem s2_v27 : after hostOps2 W (Proc.devRef .tc main_v27) = W (Proc.devRef .tc main_v27) := by after_results <;> rfl
theorem s2_arg8 : after hostOps2 W (Proc.devRef .tc main_arg8) = W (Proc.devRef .tc main_arg8) := by after_results <;> rfl
theorem s2_arg10 : after hostOps2 W (Proc.devRef .tc main_arg10) = W (Proc.devRef .tc main_arg10) := by after_results <;> rfl

end Stretches

/-! ## The boundaries' contents, from the launch -/

variable (m : (ℓ : Loc nD τ sig) → Buf (Elt Ideal) ℓ) (ρ : Dev nD → PrngReg)

-- after the first stretch
theorem at1_arg0 (c : Dev nD) : W1 m ρ c (Proc.devRef .tc main_arg0) = m ((c : Thread nD τ).loc main_arg0) := s0_arg0 (W0 m ρ c)
theorem at1_arg2 (c : Dev nD) : W1 m ρ c (Proc.devRef .tc main_arg2) = m ((c : Thread nD τ).loc main_arg2) := s0_arg2 (W0 m ρ c)
theorem at1_arg4 (c : Dev nD) : W1 m ρ c (Proc.devRef .tc main_arg4) = m ((c : Thread nD τ).loc main_arg4) := s0_arg4 (W0 m ρ c)
theorem at1_arg5 (c : Dev nD) : W1 m ρ c (Proc.devRef .tc main_arg5) = m ((c : Thread nD τ).loc main_arg5) := s0_arg5 (W0 m ρ c)
theorem at1_arg6 (c : Dev nD) : W1 m ρ c (Proc.devRef .tc main_arg6) = m ((c : Thread nD τ).loc main_arg6) := s0_arg6 (W0 m ρ c)
theorem at1_arg7 (c : Dev nD) : W1 m ρ c (Proc.devRef .tc main_arg7) = m ((c : Thread nD τ).loc main_arg7) := s0_arg7 (W0 m ρ c)
theorem at1_arg8 (c : Dev nD) : W1 m ρ c (Proc.devRef .tc main_arg8) = m ((c : Thread nD τ).loc main_arg8) := s0_arg8 (W0 m ρ c)
theorem at1_arg9 (c : Dev nD) : W1 m ρ c (Proc.devRef .tc main_arg9) = m ((c : Thread nD τ).loc main_arg9) := s0_arg9 (W0 m ρ c)
theorem at1_arg10 (c : Dev nD) : W1 m ρ c (Proc.devRef .tc main_arg10) = m ((c : Thread nD τ).loc main_arg10) := s0_arg10 (W0 m ρ c)
theorem at1_src (c : Dev nD) : W1 m ρ c (Proc.devRef .tc main_v1) = srcOf (m ((c : Thread nD τ).loc main_arg1)) := s0_src (W0 m ρ c)
theorem at1_dst (c : Dev nD) : W1 m ρ c (Proc.devRef .tc main_v3) = dstOf (m ((c : Thread nD τ).loc main_arg1)) := s0_dst (W0 m ρ c)
theorem at1_agg (c : Dev nD) : W1 m ρ c (Proc.devRef .tc main_v13) = agg48 (m ((c : Thread nD τ).loc main_arg0)) (srcOf (m ((c : Thread nD τ).loc main_arg1))) (dstOf (m ((c : Thread nD τ).loc main_arg1))) := s0_agg (W0 m ρ c)
theorem at1_row (c : Dev nD) : W1 m ρ c (Proc.devRef .tc main_v14) = row16 (m ((c : Thread nD τ).loc main_arg3)) := s0_row (W0 m ρ c)

-- after the first pallas_call
theorem at2_h (c : Dev nD) : W2 m ρ c (Proc.devRef .tc main_v15) = hidden1 (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans (Region0.final_of (V1 m ρ) c (at1_agg m ρ c) (at1_arg0 m ρ c) (at1_arg2 m ρ c) (at1_arg4 m ρ c) (at1_row m ρ c))
theorem at2_src (c : Dev nD) : W2 m ρ c (Proc.devRef .tc main_v1) = srcOf (m ((c : Thread nD τ).loc main_arg1)) := (W2_of_ne m ρ c main_v1 (by decide)).trans (at1_src m ρ c)
theorem at2_dst (c : Dev nD) : W2 m ρ c (Proc.devRef .tc main_v3) = dstOf (m ((c : Thread nD τ).loc main_arg1)) := (W2_of_ne m ρ c main_v3 (by decide)).trans (at1_dst m ρ c)
theorem at2_arg5 (c : Dev nD) : W2 m ρ c (Proc.devRef .tc main_arg5) = m ((c : Thread nD τ).loc main_arg5) := (W2_of_ne m ρ c main_arg5 (by decide)).trans (at1_arg5 m ρ c)
theorem at2_arg6 (c : Dev nD) : W2 m ρ c (Proc.devRef .tc main_arg6) = m ((c : Thread nD τ).loc main_arg6) := (W2_of_ne m ρ c main_arg6 (by decide)).trans (at1_arg6 m ρ c)
theorem at2_arg7 (c : Dev nD) : W2 m ρ c (Proc.devRef .tc main_arg7) = m ((c : Thread nD τ).loc main_arg7) := (W2_of_ne m ρ c main_arg7 (by decide)).trans (at1_arg7 m ρ c)
theorem at2_arg8 (c : Dev nD) : W2 m ρ c (Proc.devRef .tc main_arg8) = m ((c : Thread nD τ).loc main_arg8) := (W2_of_ne m ρ c main_arg8 (by decide)).trans (at1_arg8 m ρ c)
theorem at2_arg9 (c : Dev nD) : W2 m ρ c (Proc.devRef .tc main_arg9) = m ((c : Thread nD τ).loc main_arg9) := (W2_of_ne m ρ c main_arg9 (by decide)).trans (at1_arg9 m ρ c)
theorem at2_arg10 (c : Dev nD) : W2 m ρ c (Proc.devRef .tc main_arg10) = m ((c : Thread nD τ).loc main_arg10) := (W2_of_ne m ρ c main_arg10 (by decide)).trans (at1_arg10 m ρ c)

-- after the second stretch
theorem at3_h (c : Dev nD) : W3 m ρ c (Proc.devRef .tc main_v15) = hidden1 (m ((c : Thread nD τ).loc main_arg0)) (m ((c : Thread nD τ).loc main_arg1)) (m ((c : Thread nD τ).loc main_arg2)) (m ((c : Thread nD τ).loc main_arg3)) (m ((c : Thread nD τ).loc main_arg4)) := (s1_v15 (W2 m ρ c)).trans (at2_h m ρ c)
theorem at3_src (c : Dev nD) : W3 m ρ c (Proc.devRef .tc main_v1) = srcOf (m ((c : Thread nD τ).loc main_arg1)) := (s1_v1 (W2 m ρ c)).trans (at2_src m ρ c)
theorem at3_dst (c : Dev nD) : W3 m ρ c (Proc.devRef .tc main_v3) = dstOf (m ((c : Thread nD τ).loc main_arg1)) := (s1_v3 (W2 m ρ c)).trans (at2_dst m ρ c)
theorem at3_arg5 (c : Dev nD) : W3 m ρ c (Proc.devRef .tc main_arg5) = m ((c : Thread nD τ).loc main_arg5) := (s1_arg5 (W2 m ρ c)).trans (at2_arg5 m ρ c)
theorem at3_arg7 (c : Dev nD) : W3 m ρ c (Proc.devRef .tc main_arg7) = m ((c : Thread nD τ).loc main_arg7) := (s1_arg7 (W2 m ρ c)).trans (at2_arg7 m ρ c)
theorem at3_arg8 (c : Dev nD) : W3 m ρ c (Proc.devRef .tc main_arg8) = m ((c : Thread nD τ).loc main_arg8) := (s1_arg8 (W2 m ρ c)).trans (at2_arg8 m ρ c)
theorem at3_arg9 (c : Dev nD) : W3 m ρ c (Proc.devRef .tc main_arg9) = m ((c : Thread nD τ).loc main_arg9) := (s1_arg9 (W2 m ρ c)).trans (at2_arg9 m ρ c)
theorem at3_arg10 (c : Dev nD) : W3 m ρ c (Proc.devRef .tc main_arg10) = m ((c : Thread nD τ).loc main_arg10) := (s1_arg10 (W2 m ρ c)).trans (at2_arg10 m ρ c)
theorem at3_agg (c : Dev nD) : W3 m ρ c (Proc.devRef .tc main_v25)
    = agg16 (hidden1 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  refine (s1_agg (W2 m ρ c)).trans ?_
  rw [at2_h m ρ c, at2_src m ρ c, at2_dst m ρ c]
theorem at3_row (c : Dev nD) : W3 m ρ c (Proc.devRef .tc main_v26) = row16 (m ((c : Thread nD τ).loc main_arg6)) := by
  refine (s1_row (W2 m ρ c)).trans ?_
  rw [at2_arg6 m ρ c]

-- after the second pallas_call
theorem at4_h (c : Dev nD) : W4 m ρ c (Proc.devRef .tc main_v27)
    = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) :=
  (W4_arr m ρ c 5).trans (Region1.final_of (V3 m ρ) c (at3_agg m ρ c) (at3_h m ρ c) (at3_arg5 m ρ c) (at3_arg7 m ρ c) (at3_row m ρ c))
theorem at4_src (c : Dev nD) : W4 m ρ c (Proc.devRef .tc main_v1) = srcOf (m ((c : Thread nD τ).loc main_arg1)) := (W4_of_ne m ρ c main_v1 (by decide)).trans (at3_src m ρ c)
theorem at4_dst (c : Dev nD) : W4 m ρ c (Proc.devRef .tc main_v3) = dstOf (m ((c : Thread nD τ).loc main_arg1)) := (W4_of_ne m ρ c main_v3 (by decide)).trans (at3_dst m ρ c)
theorem at4_arg8 (c : Dev nD) : W4 m ρ c (Proc.devRef .tc main_arg8) = m ((c : Thread nD τ).loc main_arg8) := (W4_of_ne m ρ c main_arg8 (by decide)).trans (at3_arg8 m ρ c)
theorem at4_arg9 (c : Dev nD) : W4 m ρ c (Proc.devRef .tc main_arg9) = m ((c : Thread nD τ).loc main_arg9) := (W4_of_ne m ρ c main_arg9 (by decide)).trans (at3_arg9 m ρ c)
theorem at4_arg10 (c : Dev nD) : W4 m ρ c (Proc.devRef .tc main_arg10) = m ((c : Thread nD τ).loc main_arg10) := (W4_of_ne m ρ c main_arg10 (by decide)).trans (at3_arg10 m ρ c)

-- after the third stretch
theorem at5_h (c : Dev nD) : W5 m ρ c (Proc.devRef .tc main_v27)
    = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := (s2_v27 (W4 m ρ c)).trans (at4_h m ρ c)
theorem at5_arg8 (c : Dev nD) : W5 m ρ c (Proc.devRef .tc main_arg8) = m ((c : Thread nD τ).loc main_arg8) := (s2_arg8 (W4 m ρ c)).trans (at4_arg8 m ρ c)
theorem at5_arg10 (c : Dev nD) : W5 m ρ c (Proc.devRef .tc main_arg10) = m ((c : Thread nD τ).loc main_arg10) := (s2_arg10 (W4 m ρ c)).trans (at4_arg10 m ρ c)
theorem at5_agg (c : Dev nD) : W5 m ρ c (Proc.devRef .tc main_v37)
    = agg16 (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (srcOf (m ((c : Thread nD τ).loc main_arg1))) (dstOf (m ((c : Thread nD τ).loc main_arg1))) := by
  refine (s2_agg (W4 m ρ c)).trans ?_
  rw [at4_h m ρ c, at4_src m ρ c, at4_dst m ρ c]
theorem at5_row (c : Dev nD) : W5 m ρ c (Proc.devRef .tc main_v38) = row60 (m ((c : Thread nD τ).loc main_arg9)) := by
  refine (s2_row (W4 m ρ c)).trans ?_
  rw [at4_arg9 m ρ c]

/-- After the last pallas_call @main's result holds the network of the arguments. -/
theorem result (c : Dev nD) : W6 m ρ c (Proc.devRef .tc main_v39)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 5).trans (Region2.final_of (V5 m ρ) c (at5_agg m ρ c) (at5_h m ρ c) (at5_arg8 m ρ c) (at5_arg10 m ρ c) (at5_row m ρ c))

end Cert.KernelIdeal.Value

end
-- ==== Proof.RefValue.lean ====
/-
  What the idealized reference computes, as the network of the arguments.

  The reference's run ends with its result at the composed term of its host operations.  Read one operation at a
  time, each of its three layers is, entry by entry, the product of the neighbour sums with one weight matrix, plus
  the bias, plus the product of the features with the other weight matrix — the graph convolution with the bias added
  between the two products, which is the same extended real — followed, in the first two layers, by the hyperbolic
  tangent.  Its neighbour sums are the same gather and scatter-add of the same edge rows.
-/
import proofs.«156088_j64175401337157_1_alg».proof.Proof.Gen.ReferenceIdeal.Read
import proofs.«156088_j64175401337157_1_alg».proof.Proof.Net
import Idealize.ShloMosaic.Lib.ValueIdx
import Idealize.ShloMosaic.Lib.ValueLayout

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.GraphConv

/-- Row 0 of the edge list, as the reference reads it. -/
theorem src_eq (x1 : (⟨S2x1600000, .i32⟩ : BufTy).Contents (Elt Ideal)) : val_main_v1 (F := Ideal) x1 = Cert.KernelIdeal.Net.srcOf x1 := by
  unfold val_main_v1 val_main_v0 Cert.KernelIdeal.Net.srcOf
  rfl

/-- Row 1 of the edge list, as the reference reads it. -/
theorem dst_eq (x1 : (⟨S2x1600000, .i32⟩ : BufTy).Contents (Elt Ideal)) : val_main_v3 (F := Ideal) x1 = Cert.KernelIdeal.Net.dstOf x1 := by
  unfold val_main_v3 val_main_v2 Cert.KernelIdeal.Net.dstOf
  rfl

/-- The neighbour sums the reference computes before this layer are the network's. -/
theorem agg_layer1 (x0 : (⟨S100000x48, .f32⟩ : BufTy).Contents (Elt Ideal)) (x1 : (⟨S2x1600000, .i32⟩ : BufTy).Contents (Elt Ideal)) :
    val_main_v13 (F := Ideal) x0 x1 = Cert.KernelIdeal.Net.agg48 x0 (Cert.KernelIdeal.Net.srcOf x1) (Cert.KernelIdeal.Net.dstOf x1) := by
  unfold val_main_v13 val_main_v12 val_main_v11 val_main_cst val_main_v10 val_main_v9 val_main_v8 val_main_v7 val_main_v6 val_main_c_0 val_main_v5 val_main_v4 val_main_c Cert.KernelIdeal.Net.agg48 Cert.KernelIdeal.Net.col Cert.KernelIdeal.Net.wrap
  rw [src_eq x1, dst_eq x1]
  rfl

/-- The reference's layer, entry by entry: the bias added between the two products. -/
theorem layer1 (x0 : (⟨S100000x48, .f32⟩ : BufTy).Contents (Elt Ideal)) (x1 : (⟨S2x1600000, .i32⟩ : BufTy).Contents (Elt Ideal)) (x2 : (⟨S48x16, .f32⟩ : BufTy).Contents (Elt Ideal)) (x3 : (⟨S16, .f32⟩ : BufTy).Contents (Elt Ideal)) (x4 : (⟨S48x16, .f32⟩ : BufTy).Contents (Elt Ideal)) :
    val_main_v20 (F := Ideal) x0 x1 x2 x3 x4 = Cert.KernelIdeal.Net.hidden1 x0 x1 x2 x3 x4 := by
  funext i
  obtain ⟨p, e, rfl⟩ : ∃ (p : Fin 100000) (e : Fin 16), i = ix2 p e := ⟨i 0, i 1, eq_ix2 i⟩
  rw [val_main_v20_apply, val_main_v19_apply, val_main_v17_apply, val_main_v14_apply, val_main_v16_apply, val_main_v15_apply, val_main_v18_apply]
  have hla : ∀ k : Fin 48, lidx_main_v14 (ix2 p e) k = ix2 p k := fun k => funext fun ax => Fin.ext (by
    match ax with | ⟨0, _⟩ => rfl | ⟨1, _⟩ => rfl)
  have hra : ∀ k : Fin 48, ridx_main_v14 (ix2 p e) k = ix2 k e := fun k => funext fun ax => Fin.ext (by
    match ax with | ⟨0, _⟩ => rfl | ⟨1, _⟩ => rfl)
  have hlx : ∀ k : Fin 48, lidx_main_v18 (ix2 p e) k = ix2 p k := fun k => funext fun ax => Fin.ext (by
    match ax with | ⟨0, _⟩ => rfl | ⟨1, _⟩ => rfl)
  have hrx : ∀ k : Fin 48, ridx_main_v18 (ix2 p e) k = ix2 k e := fun k => funext fun ax => Fin.ext (by
    match ax with | ⟨0, _⟩ => rfl | ⟨1, _⟩ => rfl)
  have hb : idx_main_v15 (idx_main_v16 (ix2 p e)) = ix1 e := funext fun ax => Fin.ext (by
    match ax with | ⟨0, _⟩ => rfl)
  have hrow : Cert.KernelIdeal.Net.row16 x3 (ix2 (0 : Fin 1) e) = x3 (ix1 e) := by
    unfold Cert.KernelIdeal.Net.row16
    exact shapeCast_a_1a_apply x3 _ 0 e
  have ea : ∑ k : Fin 48, val_main_v13 (F := Ideal) x0 x1 (lidx_main_v14 (ix2 p e) k) * x2 (ridx_main_v14 (ix2 p e) k)
      = ∑ k : Fin 48, Cert.KernelIdeal.Net.agg48 x0 (Cert.KernelIdeal.Net.srcOf x1) (Cert.KernelIdeal.Net.dstOf x1) (ix2 p k) * x2 (ix2 k e) := by
    rw [agg_layer1 x0 x1]
    exact Finset.sum_congr rfl fun k _ => by rw [hla k, hra k]
  have ex : ∑ k : Fin 48, x0 (lidx_main_v18 (ix2 p e) k) * x4 (ridx_main_v18 (ix2 p e) k)
      = ∑ k : Fin 48, x0 (ix2 p k) * x4 (ix2 k e) :=
    Finset.sum_congr rfl fun k _ => by rw [hlx k, hrx k]
  rw [ea, ex, hb, ← hrow]

  unfold Cert.KernelIdeal.Net.hidden1
  rw [convTanh_apply, ← convAt_bias_between]
  simp only [Ideal.hostUnary_tanh_def, Ideal.addf_def]

/-- The neighbour sums the reference computes before this layer are the network's. -/
theorem agg_layer2 (x0 : (⟨S100000x48, .f32⟩ : BufTy).Contents (Elt Ideal)) (x1 : (⟨S2x1600000, .i32⟩ : BufTy).Contents (Elt Ideal)) (x2 : (⟨S48x16, .f32⟩ : BufTy).Contents (Elt Ideal)) (x3 : (⟨S16, .f32⟩ : BufTy).Contents (Elt Ideal)) (x4 : (⟨S48x16, .f32⟩ : BufTy).Contents (Elt Ideal)) :
    val_main_v30 (F := Ideal) x0 x1 x2 x3 x4 = Cert.KernelIdeal.Net.agg16 (val_main_v20 (F := Ideal) x0 x1 x2 x3 x4) (Cert.KernelIdeal.Net.srcOf x1) (Cert.KernelIdeal.Net.dstOf x1) := by
  unfold val_main_v30 val_main_v29 val_main_v28 val_main_cst_3 val_main_v27 val_main_v26 val_main_v25 val_main_v24 val_main_v23 val_main_c_2 val_main_v22 val_main_v21 val_main_c_1 Cert.KernelIdeal.Net.agg16 Cert.KernelIdeal.Net.col Cert.KernelIdeal.Net.wrap
  rw [src_eq x1, dst_eq x1]
  rfl

/-- The reference's layer, entry by entry: the bias added between the two products. -/
theorem layer2 (x0 : (⟨S100000x48, .f32⟩ : BufTy).Contents (Elt Ideal)) (x1 : (⟨S2x1600000, .i32⟩ : BufTy).Contents (Elt Ideal)) (x2 : (⟨S48x16, .f32⟩ : BufTy).Contents (Elt Ideal)) (x3 : (⟨S16, .f32⟩ : BufTy).Contents (Elt Ideal)) (x4 : (⟨S48x16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) :
    val_main_v37 (F := Ideal) x0 x1 x2 x3 x4 x5 x6 x7 = Cert.KernelIdeal.Net.hidden2 (Cert.KernelIdeal.Net.hidden1 x0 x1 x2 x3 x4) x1 x5 x6 x7 := by
  funext i
  obtain ⟨p, e, rfl⟩ : ∃ (p : Fin 100000) (e : Fin 16), i = ix2 p e := ⟨i 0, i 1, eq_ix2 i⟩
  rw [val_main_v37_apply, val_main_v36_apply, val_main_v34_apply, val_main_v31_apply, val_main_v33_apply, val_main_v32_apply, val_main_v35_apply]
  have hla : ∀ k : Fin 16, lidx_main_v31 (ix2 p e) k = ix2 p k := fun k => funext fun ax => Fin.ext (by
    match ax with | ⟨0, _⟩ => rfl | ⟨1, _⟩ => rfl)
  have hra : ∀ k : Fin 16, ridx_main_v31 (ix2 p e) k = ix2 k e := fun k => funext fun ax => Fin.ext (by
    match ax with | ⟨0, _⟩ => rfl | ⟨1, _⟩ => rfl)
  have hlx : ∀ k : Fin 16, lidx_main_v35 (ix2 p e) k = ix2 p k := fun k => funext fun ax => Fin.ext (by
    match ax with | ⟨0, _⟩ => rfl | ⟨1, _⟩ => rfl)
  have hrx : ∀ k : Fin 16, ridx_main_v35 (ix2 p e) k = ix2 k e := fun k => funext fun ax => Fin.ext (by
    match ax with | ⟨0, _⟩ => rfl | ⟨1, _⟩ => rfl)
  have hb : idx_main_v32 (idx_main_v33 (ix2 p e)) = ix1 e := funext fun ax => Fin.ext (by
    match ax with | ⟨0, _⟩ => rfl)
  have hrow : Cert.KernelIdeal.Net.row16 x6 (ix2 (0 : Fin 1) e) = x6 (ix1 e) := by
    unfold Cert.KernelIdeal.Net.row16
    exact shapeCast_a_1a_apply x6 _ 0 e
  have ea : ∑ k : Fin 16, val_main_v30 (F := Ideal) x0 x1 x2 x3 x4 (lidx_main_v31 (ix2 p e) k) * x5 (ridx_main_v31 (ix2 p e) k)
      = ∑ k : Fin 16, Cert.KernelIdeal.Net.agg16 (val_main_v20 (F := Ideal) x0 x1 x2 x3 x4) (Cert.KernelIdeal.Net.srcOf x1) (Cert.KernelIdeal.Net.dstOf x1) (ix2 p k) * x5 (ix2 k e) := by
    rw [agg_layer2 x0 x1 x2 x3 x4]
    exact Finset.sum_congr rfl fun k _ => by rw [hla k, hra k]
  have ex : ∑ k : Fin 16, (val_main_v20 (F := Ideal) x0 x1 x2 x3 x4) (lidx_main_v35 (ix2 p e) k) * x7 (ridx_main_v35 (ix2 p e) k)
      = ∑ k : Fin 16, (val_main_v20 (F := Ideal) x0 x1 x2 x3 x4) (ix2 p k) * x7 (ix2 k e) :=
    Finset.sum_congr rfl fun k _ => by rw [hlx k, hrx k]
  rw [ea, ex, hb, ← hrow]
  rw [layer1 x0 x1 x2 x3 x4]
  unfold Cert.KernelIdeal.Net.hidden2
  rw [convTanh_apply, ← convAt_bias_between]
  simp only [Ideal.hostUnary_tanh_def, Ideal.addf_def]

/-- The neighbour sums the reference computes before this layer are the network's. -/
theorem agg_layer3 (x0 : (⟨S100000x48, .f32⟩ : BufTy).Contents (Elt Ideal)) (x1 : (⟨S2x1600000, .i32⟩ : BufTy).Contents (Elt Ideal)) (x2 : (⟨S48x16, .f32⟩ : BufTy).Contents (Elt Ideal)) (x3 : (⟨S16, .f32⟩ : BufTy).Contents (Elt Ideal)) (x4 : (⟨S48x16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) :
    val_main_v47 (F := Ideal) x0 x1 x2 x3 x4 x5 x6 x7 = Cert.KernelIdeal.Net.agg16 (val_main_v37 (F := Ideal) x0 x1 x2 x3 x4 x5 x6 x7) (Cert.KernelIdeal.Net.srcOf x1) (Cert.KernelIdeal.Net.dstOf x1) := by
  unfold val_main_v47 val_main_v46 val_main_v45 val_main_cst_6 val_main_v44 val_main_v43 val_main_v42 val_main_v41 val_main_v40 val_main_c_5 val_main_v39 val_main_v38 val_main_c_4 Cert.KernelIdeal.Net.agg16 Cert.KernelIdeal.Net.col Cert.KernelIdeal.Net.wrap
  rw [src_eq x1, dst_eq x1]
  rfl

/-- The reference's layer, entry by entry: the bias added between the two products. -/
theorem layer3 (x0 : (⟨S100000x48, .f32⟩ : BufTy).Contents (Elt Ideal)) (x1 : (⟨S2x1600000, .i32⟩ : BufTy).Contents (Elt Ideal)) (x2 : (⟨S48x16, .f32⟩ : BufTy).Contents (Elt Ideal)) (x3 : (⟨S16, .f32⟩ : BufTy).Contents (Elt Ideal)) (x4 : (⟨S48x16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) (x8 : (⟨S16x60, .f32⟩ : BufTy).Contents (Elt Ideal)) (x9 : (⟨S60, .f32⟩ : BufTy).Contents (Elt Ideal)) (x10 : (⟨S16x60, .f32⟩ : BufTy).Contents (Elt Ideal)) :
    val_main_v53 (F := Ideal) x0 x1 x2 x3 x4 x5 x6 x7 x8 x9 x10 = Cert.KernelIdeal.Net.net x0 x1 x2 x3 x4 x5 x6 x7 x8 x9 x10 := by
  funext i
  obtain ⟨p, e, rfl⟩ : ∃ (p : Fin 100000) (e : Fin 60), i = ix2 p e := ⟨i 0, i 1, eq_ix2 i⟩
  rw [val_main_v53_apply, val_main_v51_apply, val_main_v48_apply, val_main_v50_apply, val_main_v49_apply, val_main_v52_apply]
  have hla : ∀ k : Fin 16, lidx_main_v48 (ix2 p e) k = ix2 p k := fun k => funext fun ax => Fin.ext (by
    match ax with | ⟨0, _⟩ => rfl | ⟨1, _⟩ => rfl)
  have hra : ∀ k : Fin 16, ridx_main_v48 (ix2 p e) k = ix2 k e := fun k => funext fun ax => Fin.ext (by
    match ax with | ⟨0, _⟩ => rfl | ⟨1, _⟩ => rfl)
  have hlx : ∀ k : Fin 16, lidx_main_v52 (ix2 p e) k = ix2 p k := fun k => funext fun ax => Fin.ext (by
    match ax with | ⟨0, _⟩ => rfl | ⟨1, _⟩ => rfl)
  have hrx : ∀ k : Fin 16, ridx_main_v52 (ix2 p e) k = ix2 k e := fun k => funext fun ax => Fin.ext (by
    match ax with | ⟨0, _⟩ => rfl | ⟨1, _⟩ => rfl)
  have hb : idx_main_v49 (idx_main_v50 (ix2 p e)) = ix1 e := funext fun ax => Fin.ext (by
    match ax with | ⟨0, _⟩ => rfl)
  have hrow : Cert.KernelIdeal.Net.row60 x9 (ix2 (0 : Fin 1) e) = x9 (ix1 e) := by
    unfold Cert.KernelIdeal.Net.row60
    exact shapeCast_a_1a_apply x9 _ 0 e
  have ea : ∑ k : Fin 16, val_main_v47 (F := Ideal) x0 x1 x2 x3 x4 x5 x6 x7 (lidx_main_v48 (ix2 p e) k) * x8 (ridx_main_v48 (ix2 p e) k)
      = ∑ k : Fin 16, Cert.KernelIdeal.Net.agg16 (val_main_v37 (F := Ideal) x0 x1 x2 x3 x4 x5 x6 x7) (Cert.KernelIdeal.Net.srcOf x1) (Cert.KernelIdeal.Net.dstOf x1) (ix2 p k) * x8 (ix2 k e) := by
    rw [agg_layer3 x0 x1 x2 x3 x4 x5 x6 x7]
    exact Finset.sum_congr rfl fun k _ => by rw [hla k, hra k]
  have ex : ∑ k : Fin 16, (val_main_v37 (F := Ideal) x0 x1 x2 x3 x4 x5 x6 x7) (lidx_main_v52 (ix2 p e) k) * x10 (ridx_main_v52 (ix2 p e) k)
      = ∑ k : Fin 16, (val_main_v37 (F := Ideal) x0 x1 x2 x3 x4 x5 x6 x7) (ix2 p k) * x10 (ix2 k e) :=
    Finset.sum_congr rfl fun k _ => by rw [hlx k, hrx k]
  rw [ea, ex, hb, ← hrow]
  rw [layer2 x0 x1 x2 x3 x4 x5 x6 x7]
  unfold Cert.KernelIdeal.Net.net Cert.KernelIdeal.Net.output
  rw [conv_apply, ← convAt_bias_between]
  simp only [Ideal.addf_def]

/-- The reference run's result term is the network of the arguments. -/
theorem result (m : (ℓ : Loc nD τ sig) → Buf (Elt Ideal) ℓ) (c : Dev nD) :
    Cert.ReferenceIdeal.Value.res_main_v53 (F := Ideal) m c
      = Cert.KernelIdeal.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (val_main_v53_eq m c).trans (layer3 _ _ _ _ _ _ _ _ _ _ _)

end Cert.ReferenceIdeal.RefValue

end
-- ==== Proof.lean ====
/-
  A three-layer graph network (48 → 16 → 16 → 60 features over 100000 nodes and 1600000 edges): the kernel against
  its reference, on the extended reals.

  Both programs gather the features by each edge's source and scatter-add them by its destination on the host, with
  the same operations.  The kernel then computes each layer in a pallas_call over twenty blocks of 5000 nodes:
  tanh((A·Wr + X·Wo) + β) for the first two layers, (A·Wr + X·Wo) + β for the last, the matrix products taking
  operands narrowed to a shorter float format, which on the extended reals is no change.  The reference computes
  (A·Wr + β) + X·Wo.  Addition of extended reals is commutative and associative, so the two agree entry by entry, for
  every input: the precondition is not used for the values.

  The three frames are the generated ones (the reference's is its run with the result dropped); the kernel's ideal
  pass rewrote nothing, so there is nothing to preserve; the algebraic claim puts both runs' results at the network
  of the arguments.
-/
import proofs.«156088_j64175401337157_1_alg».proof.Defs
import proofs.«156088_j64175401337157_1_alg».proof.Proof.Gen.Kernel
import proofs.«156088_j64175401337157_1_alg».proof.Proof.Gen.Kernel.Skeleton
import proofs.«156088_j64175401337157_1_alg».proof.Proof.Gen.Kernel.Launch
import proofs.«156088_j64175401337157_1_alg».proof.Proof.Gen.Kernel.Points
import proofs.«156088_j64175401337157_1_alg».proof.Proof.Gen.Kernel.Frame
import proofs.«156088_j64175401337157_1_alg».proof.Proof.Gen.KernelIdeal
import proofs.«156088_j64175401337157_1_alg».proof.Proof.Gen.KernelIdeal.Skeleton
import proofs.«156088_j64175401337157_1_alg».proof.Proof.Gen.KernelIdeal.Launch
import proofs.«156088_j64175401337157_1_alg».proof.Proof.Gen.KernelIdeal.Points
import proofs.«156088_j64175401337157_1_alg».proof.Proof.Gen.KernelIdeal.Frame
import proofs.«156088_j64175401337157_1_alg».proof.Proof.Gen.ReferenceIdeal
import proofs.«156088_j64175401337157_1_alg».proof.Proof.Gen.Pre_finite_inputs
import proofs.«156088_j64175401337157_1_alg».proof.Proof.Gen.ReferenceIdeal.Run
import proofs.«156088_j64175401337157_1_alg».proof.Proof.Gen.ReferenceIdeal.Read
import proofs.«156088_j64175401337157_1_alg».proof.Proof.KernelRun
import proofs.«156088_j64175401337157_1_alg».proof.Proof.KernelValue
import proofs.«156088_j64175401337157_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the (agreeing) arguments. -/
theorem algebraic : Cert.algebraic_KernelIdeal_ReferenceIdeal := by
  intro m ρ m' ρ' _ hagree
  refine ⟨fun c => Cert.KernelIdeal.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    ?_, ?_⟩
  · exact (θ_run Cert.KernelIdeal.defs _ _).mono
      (fun _ h c => ⟨(h c).1.trans (Cert.KernelIdeal.Value.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result m' c]
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
